-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x3x8192 : Shape := ⟨3, ![4, 3, 8192]⟩
abbrev S4x8192 : Shape := ⟨2, ![4, 8192]⟩
abbrev S4x3x512 : Shape := ⟨3, ![4, 3, 512]⟩
abbrev S4x3x1024 : Shape := ⟨3, ![4, 3, 1024]⟩
abbrev S4x512 : Shape := ⟨2, ![4, 512]⟩
abbrev S4x1x512 : Shape := ⟨3, ![4, 1, 512]⟩
abbrev S4x1x1024 : Shape := ⟨3, ![4, 1, 1024]⟩
abbrev S4x1024 : Shape := ⟨2, ![4, 1024]⟩
abbrev S4x512x1 : Shape := ⟨3, ![4, 512, 1]⟩
abbrev S4x512x1024 : Shape := ⟨3, ![4, 512, 1024]⟩
abbrev S_ : Shape := ⟨0, ![]⟩
abbrev S4 : Shape := ⟨1, ![4]⟩

abbrev nBuf : Space → Nat
  | .hbm => 21
  | .vmem => 12
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x3x8192, .f32⟩
  | .hbm, ⟨3, _⟩ => ⟨S4x3x8192, .f32⟩
  | .hbm, ⟨4, _⟩ => ⟨S4x8192, .f32⟩
  | .hbm, ⟨5, _⟩ => ⟨S4x3x8192, .f32⟩
  | .hbm, ⟨6, _⟩ => ⟨S4x3x8192, .f32⟩
  | .hbm, ⟨7, _⟩ => ⟨S4x8192, .f32⟩
  | .hbm, ⟨8, _⟩ => ⟨S_, .f32⟩
  | .hbm, ⟨9, _⟩ => ⟨S4, .f32⟩
  | .hbm, ⟨10, _⟩ => ⟨S_, .f32⟩
  | .hbm, ⟨11, _⟩ => ⟨S4, .f32⟩
  | .hbm, ⟨12, _⟩ => ⟨S4, .f32⟩
  | .hbm, ⟨13, _⟩ => ⟨S_, .f32⟩
  | .hbm, ⟨14, _⟩ => ⟨S4, .f32⟩
  | .hbm, ⟨15, _⟩ => ⟨S_, .f32⟩
  | .hbm, ⟨16, _⟩ => ⟨S4, .f32⟩
  | .hbm, ⟨17, _⟩ => ⟨S4, .f32⟩
  | .hbm, ⟨18, _⟩ => ⟨S4, .f32⟩
  | .hbm, ⟨19, _⟩ => ⟨S_, .f32⟩
  | .hbm, ⟨20, _⟩ => ⟨S_, .f32⟩
  | .local _ .vmem, ⟨0, _⟩ => ⟨S4x3x512, .f32⟩
  | .local _ .vmem, ⟨1, _⟩ => ⟨S4x3x512, .f32⟩
  | .local _ .vmem, ⟨2, _⟩ => ⟨S4x3x1024, .f32⟩
  | .local _ .vmem, ⟨3, _⟩ => ⟨S4x3x1024, .f32⟩
  | .local _ .vmem, ⟨4, _⟩ => ⟨S4x512, .f32⟩
  | .local _ .vmem, ⟨5, _⟩ => ⟨S4x512, .f32⟩
  | .local _ .vmem, ⟨6, _⟩ => ⟨S4x3x512, .f32⟩
  | .local _ .vmem, ⟨7, _⟩ => ⟨S4x3x512, .f32⟩
  | .local _ .vmem, ⟨8, _⟩ => ⟨S4x3x1024, .f32⟩
  | .local _ .vmem, ⟨9, _⟩ => ⟨S4x3x1024, .f32⟩
  | .local _ .vmem, ⟨10, _⟩ => ⟨S4x512, .f32⟩
  | .local _ .vmem, ⟨11, _⟩ => ⟨S4x512, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v76 : BitVec 1 := Scalar.cmpi .eq arg1 c0_i32
  let v77 : BitVec 32 := Scalar.extui v76
  let c0_i32_6 : BitVec 32 := 0#32
  let v78 : BitVec 1 := Scalar.cmpi .ne v77 c0_i32_6
  v78

def k0_cond2 (i : grid0.Coords) : BitVec 1 :=
  let arg1 : BitVec 32 := BitVec.ofNat 32 (i 1).val
  let c0_i32_7 : BitVec 32 := 0#32
  let v79 : BitVec 1 := Scalar.cmpi .ne arg1 c0_i32_7
  let v80 : BitVec 32 := Scalar.extui v79
  let c0_i32_8 : BitVec 32 := 0#32
  let v81 : BitVec 1 := Scalar.cmpi .ne v80 c0_i32_8
  v81

def k0_cond3 (i : grid0.Coords) : BitVec 1 :=
  let arg1 : BitVec 32 := BitVec.ofNat 32 (i 1).val
  let c7_i32 : BitVec 32 := 7#32
  let v82 : BitVec 1 := Scalar.cmpi .eq arg1 c7_i32
  let v83 : BitVec 32 := Scalar.extui v82
  let c0_i32_9 : BitVec 32 := 0#32
  let v84 : BitVec 1 := Scalar.cmpi .ne v83 c0_i32_9
  v84

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4x3x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![16, 8], ![false, false]⟩

def k1_cond1 (i : grid1.Coords) : BitVec 1 :=
  let arg1 : BitVec 32 := BitVec.ofNat 32 (i 1).val
  let c0_i32 : BitVec 32 := 0#32
  let v76 : BitVec 1 := Scalar.cmpi .eq arg1 c0_i32
  let v77 : BitVec 32 := Scalar.extui v76
  let c0_i32_6 : BitVec 32 := 0#32
  let v78 : BitVec 1 := Scalar.cmpi .ne v77 c0_i32_6
  v78

def k1_cond2 (i : grid1.Coords) : BitVec 1 :=
  let arg1 : BitVec 32 := BitVec.ofNat 32 (i 1).val
  let c0_i32_7 : BitVec 32 := 0#32
  let v79 : BitVec 1 := Scalar.cmpi .ne arg1 c0_i32_7
  let v80 : BitVec 32 := Scalar.extui v79
  let c0_i32_8 : BitVec 32 := 0#32
  let v81 : BitVec 1 := Scalar.cmpi .ne v80 c0_i32_8
  v81

def k1_cond3 (i : grid1.Coords) : BitVec 1 :=
  let arg1 : BitVec 32 := BitVec.ofNat 32 (i 1).val
  let c7_i32 : BitVec 32 := 7#32
  let v82 : BitVec 1 := Scalar.cmpi .eq arg1 c7_i32
  let v83 : BitVec 32 := Scalar.extui v82
  let c0_i32_9 : BitVec 32 := 0#32
  let v84 : BitVec 1 := Scalar.cmpi .ne v83 c0_i32_9
  v84

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S4x3x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4x3x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  transposes_S4x8192x3_S4x3x8192_0_2_1 : S4x8192x3.Transposes [0, 2, 1] S4x3x8192
  inb_S4x3x512_S4x3x512_0_0_0 : ∀ a, (![0, 0, 0] : Fin 3 → Nat) a + S4x3x512.size a ≤ S4x3x512.size a
  h_S4x3x512 : 0 < S4x3x512.numel
  shapeCasts_S4x3x512_S4x3x512 : S4x3x512.ShapeCasts S4x3x512
  inb_S4x3x1024_S4x3x1024_0_0_0 : ∀ a, (![0, 0, 0] : Fin 3 → Nat) a + S4x3x1024.size a ≤ S4x3x1024.size a
  h_S4x3x1024 : 0 < S4x3x1024.numel
  shapeCasts_S4x3x1024_S4x3x1024 : S4x3x1024.ShapeCasts S4x3x1024
  slices_S4x3x512_o0_0_0_S4x1x512 : S4x3x512.Slices ![0, 0, 0] S4x1x512
  shapeCasts_S4x1x512_S4x512 : S4x1x512.ShapeCasts S4x512
  slices_S4x3x1024_o0_0_0_S4x1x1024 : S4x3x1024.Slices ![0, 0, 0] S4x1x1024
  shapeCasts_S4x1x1024_S4x1024 : S4x1x1024.ShapeCasts S4x1024
  slices_S4x3x512_o0_1_0_S4x1x512 : S4x3x512.Slices ![0, 1, 0] S4x1x512
  slices_S4x3x1024_o0_1_0_S4x1x1024 : S4x3x1024.Slices ![0, 1, 0] S4x1x1024
  slices_S4x3x512_o0_2_0_S4x1x512 : S4x3x512.Slices ![0, 2, 0] S4x1x512
  slices_S4x3x1024_o0_2_0_S4x1x1024 : S4x3x1024.Slices ![0, 2, 0] S4x1x1024
  shapeCasts_S4x512_S4x512x1 : S4x512.ShapeCasts S4x512x1
  shapeCasts_S4x1024_S4x1x1024 : S4x1024.ShapeCasts S4x1x1024
  broadcasts_S4x512x1_S4x512x1024 : S4x512x1.Broadcasts S4x512x1024
  broadcasts_S4x1x1024_S4x512x1024 : S4x1x1024.Broadcasts S4x512x1024
  reduces_S4x512x1024_S4x512 : S4x512x1024.Reduces [2] S4x512
  inb_S4x512_S4x512_0_0 : ∀ a, (![0, 0] : Fin 2 → Nat) a + S4x512.size a ≤ S4x512.size a
  h_S4x512 : 0 < S4x512.numel
  shapeCasts_S4x512_S4x512 : S4x512.ShapeCasts S4x512
  reducesTo_S4x8192_S4_d1 : S4x8192.ReducesTo [1] S4
  h_S_ : 0 < S_.numel
  bcast_S_S4 : S_.BroadcastsInDim S4 (![] : Fin 0 → Fin S4.rank)
  reducesTo_S4_S_d0 : S4.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x3x512.size a ≤ S4x3x8192.size a
  hwx0_0 : ∀ i : grid0.Coords, EltTy.bits .f32 = 32 ∨ (Rect.block (s := S4x3x8192) S4x3x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x3x1024.size a ≤ S4x3x8192.size a
  hwx0_1 : ∀ i : grid0.Coords, EltTy.bits .f32 = 32 ∨ (Rect.block (s := S4x3x8192) S4x3x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512.size a ≤ S4x8192.size a
  hwx0_2 : ∀ i : grid0.Coords, EltTy.bits .f32 = 32 ∨ (Rect.block (s := S4x8192) S4x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x3x512.size a ≤ S4x3x8192.size a
  hwx1_0 : ∀ i : grid1.Coords, EltTy.bits .f32 = 32 ∨ (Rect.block (s := S4x3x8192) S4x3x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x3x1024.size a ≤ S4x3x8192.size a
  hwx1_1 : ∀ i : grid1.Coords, EltTy.bits .f32 = 32 ∨ (Rect.block (s := S4x3x8192) S4x3x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x512.size a ≤ S4x8192.size a
  hwx1_2 : ∀ i : grid1.Coords, EltTy.bits .f32 = 32 ∨ (Rect.block (s := S4x8192) S4x512.size (cc1_transform_2 i) (hinb1_2 i)).WholeWords (EltTy.packing .f32)

variable [Facts₀]

abbrev win0_0 : Pipeline.Window sig grid0 :=
  Pipeline.Window.ofSpec (Memref.whole main_v0) S4x3x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x3x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) && !(k0_cond3 i == 1#1) | ⟨_ + 3, h⟩ => absurd h (Nat.not_lt.2 (Nat.le_add_left _ _))

abbrev win1_0 : Pipeline.Window sig grid1 :=
  Pipeline.Window.ofSpec (Memref.whole main_v3) S4x3x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S4x3x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S4x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond1 i == 1#1) && !(k1_cond2 i == 1#1) && !(k1_cond3 i == 1#1) | ⟨_ + 3, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩
abbrev S4 : Shape := ⟨1, ![4]⟩

abbrev nBuf : Space → Nat
  | .hbm => 39
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192x8192, .f32⟩
  | .hbm, ⟨20, _⟩ => ⟨S4x8192x8192, .f32⟩
  | .hbm, ⟨21, _⟩ => ⟨S4x8192x8192, .f32⟩
  | .hbm, ⟨22, _⟩ => ⟨S_, .f32⟩
  | .hbm, ⟨23, _⟩ => ⟨S4x8192, .f32⟩
  | .hbm, ⟨24, _⟩ => ⟨S_, .f32⟩
  | .hbm, ⟨25, _⟩ => ⟨S4x8192, .f32⟩
  | .hbm, ⟨26, _⟩ => ⟨S_, .f32⟩
  | .hbm, ⟨27, _⟩ => ⟨S4, .f32⟩
  | .hbm, ⟨28, _⟩ => ⟨S_, .f32⟩
  | .hbm, ⟨29, _⟩ => ⟨S4, .f32⟩
  | .hbm, ⟨30, _⟩ => ⟨S4, .f32⟩
  | .hbm, ⟨31, _⟩ => ⟨S_, .f32⟩
  | .hbm, ⟨32, _⟩ => ⟨S4, .f32⟩
  | .hbm, ⟨33, _⟩ => ⟨S_, .f32⟩
  | .hbm, ⟨34, _⟩ => ⟨S4, .f32⟩
  | .hbm, ⟨35, _⟩ => ⟨S4, .f32⟩
  | .hbm, ⟨36, _⟩ => ⟨S4, .f32⟩
  | .hbm, ⟨37, _⟩ => ⟨S_, .f32⟩
  | .hbm, ⟨38, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_9 : Ref sig .tc := ⟨.hbm, 37, rfl⟩
abbrev main_v25 : Ref sig .tc := ⟨.hbm, 38, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d1 : S4x8192x8192.ReducesTo [1] S4x8192
  reducesTo_S4x8192x8192_S4x8192_d2 : S4x8192x8192.ReducesTo [2] S4x8192
  reducesTo_S4x8192_S4_d1 : S4x8192.ReducesTo [1] S4
  bcast_S_S4 : S_.BroadcastsInDim S4 (![] : Fin 0 → Fin S4.rank)
  reducesTo_S4_S_d0 : S4.ReducesTo [0] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.LibWholeStore.lean ====
/-
  Whole-buffer stores and loads.

  A rectangle at offset zero whose extent is the whole shape is the whole index set. So a store through it,
  made last, leaves exactly its payload whatever the buffer held and whatever was stored before; and a load
  through it reads the contents as they are.
-/
import Idealize.ShloMosaic.Lib.Pipeline.FrameBody
import Idealize.ShloMosaic.Lib.Pipeline.Value

noncomputable section

namespace Idealize.ShloMosaic.View

open Idealize.ShloMosaic

variable {sig : RefSig} {κ : Kind} {sp : Space} {S : Shape} {e : EltTy} {Val : EltTy → Type} [∀ e, Nonempty (Val e)]

/-- Every index lies in the rectangle at offset zero of full extent. -/
theorem mem_unit_zero_full {off : Fin S.rank → Nat} (h : off = fun _ => 0) (inb : ∀ a, off a + S.size a ≤ S.size a) (y : S.Idx) :
    y ∈ (Rect.unit off S.size inb).set := by
  subst h
  show y ∈ (Rect.whole S).set
  rw [Rect.set_whole]; exact Finset.mem_univ y

/-- A store of the whole buffer, made last, leaves its payload. -/
theorem read_writes_cons_unit_zero (v : View sig κ sp S e) (f : v.ty.Contents Val) {off : Fin S.rank → Nat} (h : off = fun _ => 0)
    (inb : ∀ a, off a + S.size a ≤ S.size a) (w : S.Idx → Val e) (L : List (Piece Val S e)) :
    v.read Val (v.writes Val f ((⟨Rect.unit off S.size inb, w⟩ : Piece Val S e) :: L)) = w := by
  rw [read_writes_eq_canon v f _ (fun y => ⟨_, List.mem_cons_self, mem_unit_zero_full h inb y⟩), canon_cons_unit_zero h inb w L]

/-- A load of the whole buffer reads its contents. -/
theorem readAt_unit_zero (v : View sig κ sp S e) (f : v.ty.Contents Val) {off : Fin S.rank → Nat} (h : off = fun _ => 0)
    (inb : ∀ a, off a + S.size a ≤ S.size a) :
    v.readAt Val (Rect.unit off S.size inb).toLoadRect f = v.read Val f := by
  rw [readAt_eq_ld, ld_unit_zero h inb]

end Idealize.ShloMosaic.View

end
-- ==== Proof.KBody0.lean ====
import proofs.«158981_j11493332484300_2_alg».proof.Proof.Gen.Kernel.Launch
import proofs.«158981_j11493332484300_2_alg».proof.Proof.Gen.Kernel.Skeleton
import proofs.«158981_j11493332484300_2_alg».proof.Proof.Gen.Kernel.Points
import proofs.«158981_j11493332484300_2_alg».proof.Proof.LibWholeStore
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
  # The first nearest-neighbour call: its body at every grid point

  The grid is 16 row tiles by 8 column tiles, visited row tile by row tile. At column tile 0 the body stores the
  tile's least squared distance into the output block; at every later column tile it merges the tile's least
  squared distance into the block by a pointwise minimum; at the last column tile (7) it then clamps the block
  below at zero and takes the square root. So the block holds, after column tile j of row tile i, the least
  squared distance over the column tiles 0..j, and after the last one its clamped root.
-/

/-! ## The body's three values -/

/-- The tile's least squared distance, per batch and query point. -/
def tileF (x0 : Vec F S4x3x512 .f32) (x1 : Vec F S4x3x1024 .f32) : Vec F S4x512 .f32 :=
  k0_pay1 (k0_pay4 x0) (k0_pay5 x1) (k0_pay6 x0) (k0_pay7 x1) (k0_pay8 x0 x1) (k0_pay9 x0) (k0_pay10 x1)

/-- The running minimum merged with the tile's. -/
def mergeF (x0 : Vec F S4x3x512 .f32) (x1 : Vec F S4x3x1024 .f32) (acc : Vec F S4x512 .f32) : Vec F S4x512 .f32 :=
  k0_pay2 (k0_pay4 x0) (k0_pay5 x1) (k0_pay6 x0) (k0_pay7 x1) (k0_pay8 x0 x1) (k0_pay9 x0) (k0_pay10 x1) acc

/-- Clamped below at zero, then the square root. -/
def finF (acc : Vec F S4x512 .f32) : Vec F S4x512 .f32 := k0_pay3 acc

/-! ## Which column tile a point is -/

theorem cond1_col : ∀ j : Fin 8, (Scalar.cmpi .ne (Scalar.extui (Scalar.cmpi .eq (BitVec.ofNat 32 j.val) 0#32) : BitVec 32) 0#32 = 1#1) ↔ j.val = 0 := by decide
theorem cond2_col : ∀ j : Fin 8, (Scalar.cmpi .ne (Scalar.extui (Scalar.cmpi .ne (BitVec.ofNat 32 j.val) 0#32) : BitVec 32) 0#32 = 1#1) ↔ ¬ j.val = 0 := by decide

theorem k0_cond1_iff (i : grid0.Coords) : k0_cond1 i = 1#1 ↔ (i 1).val = 0 := by
  unfold k0_cond1; exact cond1_col (i 1)
theorem k0_cond2_iff (i : grid0.Coords) : k0_cond2 i = 1#1 ↔ ¬ (i 1).val = 0 := by
  unfold k0_cond2; exact cond2_col (i 1)

/-- At every point the first or the second condition holds: the output block is stored at every point. -/
theorem live0_2 (i : grid0.Coords) : cfg0.idle 2 i = false := by
  show (!(k0_cond1 i == 1#1) && !(k0_cond2 i == 1#1) && !(k0_cond3 i == 1#1)) = false
  by_cases h : (i 1).val = 0
  · have h1 : k0_cond1 i = 1#1 := (k0_cond1_iff i).mpr h
    simp [h1]
  · have h2 : k0_cond2 i = 1#1 := (k0_cond2_iff i).mpr h
    simp [h2]

/-- The first condition holds at column tile 0 only, -/
theorem hcnd1 : ∀ t : Fin cfg0.N, k0_cond1 (grid0.coords t) = 1#1 ↔ t.val % 8 = 0 :=
  (by decide +kernel : ∀ t : Fin grid0.N, k0_cond1 (grid0.coords t) = 1#1 ↔ t.val % 8 = 0)
/-- the second at every other, -/
theorem hcnd2 : ∀ t : Fin cfg0.N, k0_cond2 (grid0.coords t) = 1#1 ↔ ¬ t.val % 8 = 0 :=
  (by decide +kernel : ∀ t : Fin grid0.N, k0_cond2 (grid0.coords t) = 1#1 ↔ ¬ t.val % 8 = 0)
/-- the third at the last. -/
theorem hcnd3 : ∀ t : Fin cfg0.N, k0_cond3 (grid0.coords t) = 1#1 ↔ t.val % 8 = 7 :=
  (by decide +kernel : ∀ t : Fin grid0.N, k0_cond3 (grid0.coords t) = 1#1 ↔ t.val % 8 = 7)

/-! ## The body's run in each of the three cases -/

theorem off2 : (![0, 0] : Fin S4x512.rank → Nat) = fun _ => 0 := by
  funext a; fin_cases a <;> rfl
theorem off3a : (![0, 0, 0] : Fin S4x3x512.rank → Nat) = fun _ => 0 := by
  funext a; fin_cases a <;> rfl
theorem off3b : (![0, 0, 0] : Fin S4x3x1024.rank → Nat) = fun _ => 0 := by
  funext a; fin_cases a <;> rfl

set_option maxHeartbeats 1000000 in
/-- Column tile 0: the output block ends at the tile's least squared distance, whatever it held. -/
theorem sound0_A (c : Dev nD) (E : Set ℕ) (i : grid0.Coords)
    (arg2 : Memref sig .tc .vmem S4x3x512 .f32) (harg2 : arg2.IsWhole) (arg3 : Memref sig .tc .vmem S4x3x1024 .f32) (harg3 : arg3.IsWhole)
    (arg4 : Memref sig .tc .vmem S4x512 .f32) (harg4 : arg4.IsWhole)
    (hc1 : k0_cond1 i = 1#1) (hc2 : ¬ k0_cond2 i = 1#1) (hc3 : ¬ k0_cond3 i = 1#1)
    (x0 : Vec F S4x3x512 .f32) (x1 : Vec F S4x3x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (tileF x0 x1)) -∗ K ⟨⟩))
      ⊢ wp frame (wpE (defs₀ (F := F)) Variants.none c none) E (cc0__nn_min_sq_kernel i arg2 harg2 arg3 harg3 arg4 harg4) K := by
  simp only [cc0__nn_min_sq_kernel_eq_skeleton]; unfold cc0__nn_min_sq_kernel_skel
  unfold owns
  iintro ⟨⟨%f0, %hf0, H0⟩, ⟨%f1, %hf1, H1⟩, ⟨%d2, %f2, -, H2⟩, Hk⟩
  subst hf0; subst hf1
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_cons_unit_zero _ _ off2]
  unfold tileF
  sl_unfold_words
  simp only [View.readAt_unit_zero (S := S4x3x512) _ _ off3a, View.readAt_unit_zero (S := S4x3x1024) _ _ off3b]

set_option maxHeartbeats 1000000 in
/-- A middle column tile: the output block, found at `xo`, ends at `xo` merged with the tile's. -/
theorem sound0_B (c : Dev nD) (E : Set ℕ) (i : grid0.Coords)
    (arg2 : Memref sig .tc .vmem S4x3x512 .f32) (harg2 : arg2.IsWhole) (arg3 : Memref sig .tc .vmem S4x3x1024 .f32) (harg3 : arg3.IsWhole)
    (arg4 : Memref sig .tc .vmem S4x512 .f32) (harg4 : arg4.IsWhole)
    (hc1 : ¬ k0_cond1 i = 1#1) (hc2 : k0_cond2 i = 1#1) (hc3 : ¬ k0_cond3 i = 1#1)
    (x0 : Vec F S4x3x512 .f32) (x1 : Vec F S4x3x1024 .f32) (xo : Vec F S4x512 .f32) (K : PUnit → sProp 𝕄) :
    iprop(owns (c : Thread nD τ) arg2 fullShare x0 ∗ owns (c : Thread nD τ) arg3 fullShare x1 ∗ owns (c : Thread nD τ) arg4 fullShare xo
        ∗ (iprop(owns (c : Thread nD τ) arg2 fullShare x0 ∗ owns (c : Thread nD τ) arg3 fullShare x1 ∗ owns (c : Thread nD τ) arg4 fullShare (mergeF x0 x1 xo)) -∗ K ⟨⟩))
      ⊢ wp frame (wpE (defs₀ (F := F)) Variants.none c none) E (cc0__nn_min_sq_kernel i arg2 harg2 arg3 harg3 arg4 harg4) K := by
  simp only [cc0__nn_min_sq_kernel_eq_skeleton]; unfold cc0__nn_min_sq_kernel_skel
  unfold owns
  iintro ⟨⟨%f0, %hf0, H0⟩, ⟨%f1, %hf1, H1⟩, ⟨%f2, %hf2, H2⟩, Hk⟩
  subst hf0; subst hf1; subst hf2
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_cons_unit_zero _ _ off2]
  unfold mergeF
  sl_unfold_words
  simp only [View.readAt_unit_zero (S := S4x3x512) _ _ off3a, View.readAt_unit_zero (S := S4x3x1024) _ _ off3b,
    View.readAt_unit_zero (S := S4x512) _ _ off2]

set_option maxHeartbeats 1000000 in
/-- The last column tile: the output block, found at `xo`, ends at the clamped root of `xo` merged with the tile's. -/
theorem sound0_C (c : Dev nD) (E : Set ℕ) (i : grid0.Coords)
    (arg2 : Memref sig .tc .vmem S4x3x512 .f32) (harg2 : arg2.IsWhole) (arg3 : Memref sig .tc .vmem S4x3x1024 .f32) (harg3 : arg3.IsWhole)
    (arg4 : Memref sig .tc .vmem S4x512 .f32) (harg4 : arg4.IsWhole)
    (hc1 : ¬ k0_cond1 i = 1#1) (hc2 : k0_cond2 i = 1#1) (hc3 : k0_cond3 i = 1#1)
    (x0 : Vec F S4x3x512 .f32) (x1 : Vec F S4x3x1024 .f32) (xo : Vec F S4x512 .f32) (K : PUnit → sProp 𝕄) :
    iprop(owns (c : Thread nD τ) arg2 fullShare x0 ∗ owns (c : Thread nD τ) arg3 fullShare x1 ∗ owns (c : Thread nD τ) arg4 fullShare xo
        ∗ (iprop(owns (c : Thread nD τ) arg2 fullShare x0 ∗ owns (c : Thread nD τ) arg3 fullShare x1 ∗ owns (c : Thread nD τ) arg4 fullShare (finF (mergeF x0 x1 xo))) -∗ K ⟨⟩))
      ⊢ wp frame (wpE (defs₀ (F := F)) Variants.none c none) E (cc0__nn_min_sq_kernel i arg2 harg2 arg3 harg3 arg4 harg4) K := by
  simp only [cc0__nn_min_sq_kernel_eq_skeleton]; unfold cc0__nn_min_sq_kernel_skel
  unfold owns
  iintro ⟨⟨%f0, %hf0, H0⟩, ⟨%f1, %hf1, H1⟩, ⟨%f2, %hf2, H2⟩, Hk⟩
  subst hf0; subst hf1; subst hf2
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_cons_unit_zero _ _ off2]
  unfold finF mergeF
  sl_unfold_words
  simp only [View.readCov_unit_zero (S := S4x512) _ off2, View.readAt_unit_zero (S := S4x3x512) _ _ off3a,
    View.readAt_unit_zero (S := S4x3x1024) _ _ off3b, View.readAt_unit_zero (S := S4x512) _ _ off2]

/-! ## The windows' blocks and the proof data, at the contents `V` the call is entered with -/

section Region
variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The query window's buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The database window's buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- What the output block holds after the body at position `n`: by recursion on the point, restarting at every
    column tile 0, merging at the others, and rooting after the merge at column tile 7. -/
def accAt0 (c : Dev nD) : (n : ℕ) → n < cfg0.N → Vec F S4x512 .f32
  | 0, hn => tileF (iblk0 V c 0 ⟨0, hn⟩) (iblk0 V c 1 ⟨0, hn⟩)
  | n + 1, hn =>
    if (n + 1) % 8 = 0 then tileF (iblk0 V c 0 ⟨n + 1, hn⟩) (iblk0 V c 1 ⟨n + 1, hn⟩)
    else if (n + 1) % 8 = 7 then
      finF (mergeF (iblk0 V c 0 ⟨n + 1, hn⟩) (iblk0 V c 1 ⟨n + 1, hn⟩) (accAt0 c n (Nat.lt_of_succ_lt hn)))
    else mergeF (iblk0 V c 0 ⟨n + 1, hn⟩) (iblk0 V c 1 ⟨n + 1, hn⟩) (accAt0 c n (Nat.lt_of_succ_lt hn))

theorem accAt0_A (c : Dev nD) (t : Fin cfg0.N) (h0 : t.val % 8 = 0) :
    accAt0 V c t.val t.isLt = tileF (iblk0 V c 0 t) (iblk0 V c 1 t) := by
  obtain ⟨n, hn⟩ := t
  cases n with
  | zero => rfl
  | succ n => exact (if_pos h0).trans rfl

theorem accAt0_B (c : Dev nD) (t : Fin cfg0.N) (h0 : ¬ t.val % 8 = 0) (h7 : ¬ t.val % 8 = 7) :
    accAt0 V c t.val t.isLt = mergeF (iblk0 V c 0 t) (iblk0 V c 1 t) (accAt0 V c (t.val - 1) (Nat.lt_of_le_of_lt (Nat.sub_le _ _) t.isLt)) := by
  obtain ⟨n, hn⟩ := t
  cases n with
  | zero => exact absurd (Nat.zero_mod _) h0
  | succ n => exact (if_neg h0).trans ((if_neg h7).trans rfl)

theorem accAt0_C (c : Dev nD) (t : Fin cfg0.N) (h7 : t.val % 8 = 7) :
    accAt0 V c t.val t.isLt = finF (mergeF (iblk0 V c 0 t) (iblk0 V c 1 t) (accAt0 V c (t.val - 1) (Nat.lt_of_le_of_lt (Nat.sub_le _ _) t.isLt))) := by
  obtain ⟨n, hn⟩ := t
  cases n with
  | zero => dsimp only at h7; omega
  | succ n => exact (if_neg (fun h => by dsimp only at h7; omega)).trans ((if_pos h7).trans rfl)

/-- The proof data of the call on core `c`: the arrays as the call finds them; after the body each input's buffer at its
    block and the output's at `accAt0`; the scoped rest and the generator register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => accAt0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = accAt0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- Off column tile 0 the output block's buffer holds what the body left at the point before: the block is
    written back only after column tile 7, and the output is stored at every point. -/
theorem before0_2_kept (c : Dev nD) (t : Fin cfg0.N) (h0 : ¬ t.val % 8 = 0) (d) :
    (dat0 V c).before 2 t d = accAt0 V c (t.val - 1) (Nat.lt_of_le_of_lt (Nat.sub_le _ _) t.isLt) := by
  rw [Dat.before_out_kept _ 2 rfl t (by omega) (Bool.eq_false_iff.mpr fun h => by have := (flush0_2 _).mp h; dsimp only at this; omega)
    live0_2 (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 1000000 in
/-- The body at any point: which column tile the point is decides the case; off column tile 0 the output's buffer
    holds what the point before left. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  by_cases h0 : t.val % 8 = 0
  · rw [accAt0_A V c t h0]
    iintro ⟨HΦ, Ho, ⟨%d0, H0⟩, ⟨%d1, H1⟩, ⟨%d2, H2⟩⟩
    iapply (sound0_A c Set.univ (grid0.coords t) _ _ _ _ _ _ ((hcnd1 t).mpr h0) (fun h => (hcnd2 t).mp h h0)
      (fun h => by have := (hcnd3 t).mp h; omega) (iblk0 V c 0 t) (iblk0 V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · simp only [before0_2_kept V c t h0]
    by_cases h7 : t.val % 8 = 7
    · rw [accAt0_C V c t h7]
      iintro ⟨HΦ, Ho, ⟨%d0, H0⟩, ⟨%d1, H1⟩, ⟨%d2, H2⟩⟩
      iapply (sound0_C c Set.univ (grid0.coords t) _ _ _ _ _ _ (fun h => h0 ((hcnd1 t).mp h)) ((hcnd2 t).mpr h0)
        ((hcnd3 t).mpr h7) (iblk0 V c 0 t) (iblk0 V c 1 t) _ _)
      isplitl [H0]; · iexact H0
      isplitl [H1]; · iexact H1
      isplitl [H2]; · iexact H2
      iintro ⟨H0, H1, H2⟩
      isplitl [HΦ]; · iexact HΦ
      isplitl [Ho]; · iexact Ho
      isplitl [H0]; · iexact H0
      isplitl [H1]; · iexact H1
      iexact H2
    · rw [accAt0_B V c t h0 h7]
      iintro ⟨HΦ, Ho, ⟨%d0, H0⟩, ⟨%d1, H1⟩, ⟨%d2, H2⟩⟩
      iapply (sound0_B c Set.univ (grid0.coords t) _ _ _ _ _ _ (fun h => h0 ((hcnd1 t).mp h)) ((hcnd2 t).mpr h0)
        (fun h => h7 ((hcnd3 t).mp h)) (iblk0 V c 0 t) (iblk0 V c 1 t) _ _)
      isplitl [H0]; · iexact H0
      isplitl [H1]; · iexact H1
      isplitl [H2]; · iexact H2
      iintro ⟨H0, H1, H2⟩
      isplitl [HΦ]; · iexact HΦ
      isplitl [Ho]; · iexact Ho
      isplitl [H0]; · iexact H0
      isplitl [H1]; · iexact H1
      iexact H2

set_option maxHeartbeats 1000000 in
/-- The body obligation at every point. The output window is live at every point (`live0_2`). -/
theorem body_obligation0 (c : Dev nD) : BodyObligation (dat0 (F := F) V c) (defs₀ (F := F)) Variants.none () Set.univ := fun t => by
  rw [bigSep_W0, bigSep_W0]
  have hi : cfg0.idle 2 (cfg0.grid.coords t) = false := live0_2 _
  rw [hi]
  exact sound_body0 V c t

end Region

end Cert.Kernel.Gen.Hand

end
-- ==== Proof.KBody1.lean ====
import proofs.«158981_j11493332484300_2_alg».proof.Proof.Gen.Kernel.Launch
import proofs.«158981_j11493332484300_2_alg».proof.Proof.Gen.Kernel.Skeleton
import proofs.«158981_j11493332484300_2_alg».proof.Proof.Gen.Kernel.Points
import proofs.«158981_j11493332484300_2_alg».proof.Proof.LibWholeStore
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
  # The second nearest-neighbour call: its body at every grid point

  The grid is 16 row tiles by 8 column tiles, visited row tile by row tile. At column tile 0 the body stores the
  tile's least squared distance into the output block; at every later column tile it merges the tile's least
  squared distance into the block by a pointwise minimum; at the last column tile (7) it then clamps the block
  below at zero and takes the square root. So the block holds, after column tile j of row tile i, the least
  squared distance over the column tiles 0..j, and after the last one its clamped root.
-/

/-! ## The body's three values -/

/-- The tile's least squared distance, per batch and query point. -/
def tileG (x0 : Vec F S4x3x512 .f32) (x1 : Vec F S4x3x1024 .f32) : Vec F S4x512 .f32 :=
  k1_pay1 (k1_pay4 x0) (k1_pay5 x1) (k1_pay6 x0) (k1_pay7 x1) (k1_pay8 x0 x1) (k1_pay9 x0) (k1_pay10 x1)

/-- The running minimum merged with the tile's. -/
def mergeG (x0 : Vec F S4x3x512 .f32) (x1 : Vec F S4x3x1024 .f32) (acc : Vec F S4x512 .f32) : Vec F S4x512 .f32 :=
  k1_pay2 (k1_pay4 x0) (k1_pay5 x1) (k1_pay6 x0) (k1_pay7 x1) (k1_pay8 x0 x1) (k1_pay9 x0) (k1_pay10 x1) acc

/-- Clamped below at zero, then the square root. -/
def finG (acc : Vec F S4x512 .f32) : Vec F S4x512 .f32 := k1_pay3 acc

/-! ## Which column tile a point is -/

theorem condb1_col : ∀ j : Fin 8, (Scalar.cmpi .ne (Scalar.extui (Scalar.cmpi .eq (BitVec.ofNat 32 j.val) 0#32) : BitVec 32) 0#32 = 1#1) ↔ j.val = 0 := by decide
theorem condb2_col : ∀ j : Fin 8, (Scalar.cmpi .ne (Scalar.extui (Scalar.cmpi .ne (BitVec.ofNat 32 j.val) 0#32) : BitVec 32) 0#32 = 1#1) ↔ ¬ j.val = 0 := by decide

theorem k1_cond1_iff (i : grid1.Coords) : k1_cond1 i = 1#1 ↔ (i 1).val = 0 := by
  unfold k1_cond1; exact condb1_col (i 1)
theorem k1_cond2_iff (i : grid1.Coords) : k1_cond2 i = 1#1 ↔ ¬ (i 1).val = 0 := by
  unfold k1_cond2; exact condb2_col (i 1)

/-- At every point the first or the second condition holds: the output block is stored at every point. -/
theorem live1_2 (i : grid1.Coords) : cfg1.idle 2 i = false := by
  show (!(k1_cond1 i == 1#1) && !(k1_cond2 i == 1#1) && !(k1_cond3 i == 1#1)) = false
  by_cases h : (i 1).val = 0
  · have h1 : k1_cond1 i = 1#1 := (k1_cond1_iff i).mpr h
    simp [h1]
  · have h2 : k1_cond2 i = 1#1 := (k1_cond2_iff i).mpr h
    simp [h2]

/-- The first condition holds at column tile 0 only, -/
theorem hcne1 : ∀ t : Fin cfg1.N, k1_cond1 (grid1.coords t) = 1#1 ↔ t.val % 8 = 0 :=
  (by decide +kernel : ∀ t : Fin grid1.N, k1_cond1 (grid1.coords t) = 1#1 ↔ t.val % 8 = 0)
/-- the second at every other, -/
theorem hcne2 : ∀ t : Fin cfg1.N, k1_cond2 (grid1.coords t) = 1#1 ↔ ¬ t.val % 8 = 0 :=
  (by decide +kernel : ∀ t : Fin grid1.N, k1_cond2 (grid1.coords t) = 1#1 ↔ ¬ t.val % 8 = 0)
/-- the third at the last. -/
theorem hcne3 : ∀ t : Fin cfg1.N, k1_cond3 (grid1.coords t) = 1#1 ↔ t.val % 8 = 7 :=
  (by decide +kernel : ∀ t : Fin grid1.N, k1_cond3 (grid1.coords t) = 1#1 ↔ t.val % 8 = 7)

/-! ## The body's run in each of the three cases -/

theorem offb2 : (![0, 0] : Fin S4x512.rank → Nat) = fun _ => 0 := by
  funext a; fin_cases a <;> rfl
theorem offb3a : (![0, 0, 0] : Fin S4x3x512.rank → Nat) = fun _ => 0 := by
  funext a; fin_cases a <;> rfl
theorem offb3b : (![0, 0, 0] : Fin S4x3x1024.rank → Nat) = fun _ => 0 := by
  funext a; fin_cases a <;> rfl

set_option maxHeartbeats 1000000 in
/-- Column tile 0: the output block ends at the tile's least squared distance, whatever it held. -/
theorem sound1_A (c : Dev nD) (E : Set ℕ) (i : grid1.Coords)
    (arg2 : Memref sig .tc .vmem S4x3x512 .f32) (harg2 : arg2.IsWhole) (arg3 : Memref sig .tc .vmem S4x3x1024 .f32) (harg3 : arg3.IsWhole)
    (arg4 : Memref sig .tc .vmem S4x512 .f32) (harg4 : arg4.IsWhole)
    (hc1 : k1_cond1 i = 1#1) (hc2 : ¬ k1_cond2 i = 1#1) (hc3 : ¬ k1_cond3 i = 1#1)
    (x0 : Vec F S4x3x512 .f32) (x1 : Vec F S4x3x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (tileG x0 x1)) -∗ K ⟨⟩))
      ⊢ wp frame (wpE (defs₀ (F := F)) Variants.none c none) E (cc1__nn_min_sq_kernel i arg2 harg2 arg3 harg3 arg4 harg4) K := by
  simp only [cc1__nn_min_sq_kernel_eq_skeleton]; unfold cc1__nn_min_sq_kernel_skel
  unfold owns
  iintro ⟨⟨%f0, %hf0, H0⟩, ⟨%f1, %hf1, H1⟩, ⟨%d2, %f2, -, H2⟩, Hk⟩
  subst hf0; subst hf1
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_cons_unit_zero _ _ offb2]
  unfold tileG
  sl_unfold_words
  simp only [View.readAt_unit_zero (S := S4x3x512) _ _ offb3a, View.readAt_unit_zero (S := S4x3x1024) _ _ offb3b]

set_option maxHeartbeats 1000000 in
/-- A middle column tile: the output block, found at `xo`, ends at `xo` merged with the tile's. -/
theorem sound1_B (c : Dev nD) (E : Set ℕ) (i : grid1.Coords)
    (arg2 : Memref sig .tc .vmem S4x3x512 .f32) (harg2 : arg2.IsWhole) (arg3 : Memref sig .tc .vmem S4x3x1024 .f32) (harg3 : arg3.IsWhole)
    (arg4 : Memref sig .tc .vmem S4x512 .f32) (harg4 : arg4.IsWhole)
    (hc1 : ¬ k1_cond1 i = 1#1) (hc2 : k1_cond2 i = 1#1) (hc3 : ¬ k1_cond3 i = 1#1)
    (x0 : Vec F S4x3x512 .f32) (x1 : Vec F S4x3x1024 .f32) (xo : Vec F S4x512 .f32) (K : PUnit → sProp 𝕄) :
    iprop(owns (c : Thread nD τ) arg2 fullShare x0 ∗ owns (c : Thread nD τ) arg3 fullShare x1 ∗ owns (c : Thread nD τ) arg4 fullShare xo
        ∗ (iprop(owns (c : Thread nD τ) arg2 fullShare x0 ∗ owns (c : Thread nD τ) arg3 fullShare x1 ∗ owns (c : Thread nD τ) arg4 fullShare (mergeG x0 x1 xo)) -∗ K ⟨⟩))
      ⊢ wp frame (wpE (defs₀ (F := F)) Variants.none c none) E (cc1__nn_min_sq_kernel i arg2 harg2 arg3 harg3 arg4 harg4) K := by
  simp only [cc1__nn_min_sq_kernel_eq_skeleton]; unfold cc1__nn_min_sq_kernel_skel
  unfold owns
  iintro ⟨⟨%f0, %hf0, H0⟩, ⟨%f1, %hf1, H1⟩, ⟨%f2, %hf2, H2⟩, Hk⟩
  subst hf0; subst hf1; subst hf2
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_cons_unit_zero _ _ offb2]
  unfold mergeG
  sl_unfold_words
  simp only [View.readAt_unit_zero (S := S4x3x512) _ _ offb3a, View.readAt_unit_zero (S := S4x3x1024) _ _ offb3b,
    View.readAt_unit_zero (S := S4x512) _ _ offb2]

set_option maxHeartbeats 1000000 in
/-- The last column tile: the output block, found at `xo`, ends at the clamped root of `xo` merged with the tile's. -/
theorem sound1_C (c : Dev nD) (E : Set ℕ) (i : grid1.Coords)
    (arg2 : Memref sig .tc .vmem S4x3x512 .f32) (harg2 : arg2.IsWhole) (arg3 : Memref sig .tc .vmem S4x3x1024 .f32) (harg3 : arg3.IsWhole)
    (arg4 : Memref sig .tc .vmem S4x512 .f32) (harg4 : arg4.IsWhole)
    (hc1 : ¬ k1_cond1 i = 1#1) (hc2 : k1_cond2 i = 1#1) (hc3 : k1_cond3 i = 1#1)
    (x0 : Vec F S4x3x512 .f32) (x1 : Vec F S4x3x1024 .f32) (xo : Vec F S4x512 .f32) (K : PUnit → sProp 𝕄) :
    iprop(owns (c : Thread nD τ) arg2 fullShare x0 ∗ owns (c : Thread nD τ) arg3 fullShare x1 ∗ owns (c : Thread nD τ) arg4 fullShare xo
        ∗ (iprop(owns (c : Thread nD τ) arg2 fullShare x0 ∗ owns (c : Thread nD τ) arg3 fullShare x1 ∗ owns (c : Thread nD τ) arg4 fullShare (finG (mergeG x0 x1 xo))) -∗ K ⟨⟩))
      ⊢ wp frame (wpE (defs₀ (F := F)) Variants.none c none) E (cc1__nn_min_sq_kernel i arg2 harg2 arg3 harg3 arg4 harg4) K := by
  simp only [cc1__nn_min_sq_kernel_eq_skeleton]; unfold cc1__nn_min_sq_kernel_skel
  unfold owns
  iintro ⟨⟨%f0, %hf0, H0⟩, ⟨%f1, %hf1, H1⟩, ⟨%f2, %hf2, H2⟩, Hk⟩
  subst hf0; subst hf1; subst hf2
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_cons_unit_zero _ _ offb2]
  unfold finG mergeG
  sl_unfold_words
  simp only [View.readCov_unit_zero (S := S4x512) _ offb2, View.readAt_unit_zero (S := S4x3x512) _ _ offb3a,
    View.readAt_unit_zero (S := S4x3x1024) _ _ offb3b, View.readAt_unit_zero (S := S4x512) _ _ offb2]

/-! ## The windows' blocks and the proof data, at the contents `V` the call is entered with -/

section Region
variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The database window's buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- What the output block holds after the body at position `n`: by recursion on the point, restarting at every
    column tile 0, merging at the others, and rooting after the merge at column tile 7. -/
def accAt1 (c : Dev nD) : (n : ℕ) → n < cfg1.N → Vec F S4x512 .f32
  | 0, hn => tileG (iblk1 V c 0 ⟨0, hn⟩) (iblk1 V c 1 ⟨0, hn⟩)
  | n + 1, hn =>
    if (n + 1) % 8 = 0 then tileG (iblk1 V c 0 ⟨n + 1, hn⟩) (iblk1 V c 1 ⟨n + 1, hn⟩)
    else if (n + 1) % 8 = 7 then
      finG (mergeG (iblk1 V c 0 ⟨n + 1, hn⟩) (iblk1 V c 1 ⟨n + 1, hn⟩) (accAt1 c n (Nat.lt_of_succ_lt hn)))
    else mergeG (iblk1 V c 0 ⟨n + 1, hn⟩) (iblk1 V c 1 ⟨n + 1, hn⟩) (accAt1 c n (Nat.lt_of_succ_lt hn))

theorem accAt1_A (c : Dev nD) (t : Fin cfg1.N) (h0 : t.val % 8 = 0) :
    accAt1 V c t.val t.isLt = tileG (iblk1 V c 0 t) (iblk1 V c 1 t) := by
  obtain ⟨n, hn⟩ := t
  cases n with
  | zero => rfl
  | succ n => exact (if_pos h0).trans rfl

theorem accAt1_B (c : Dev nD) (t : Fin cfg1.N) (h0 : ¬ t.val % 8 = 0) (h7 : ¬ t.val % 8 = 7) :
    accAt1 V c t.val t.isLt = mergeG (iblk1 V c 0 t) (iblk1 V c 1 t) (accAt1 V c (t.val - 1) (Nat.lt_of_le_of_lt (Nat.sub_le _ _) t.isLt)) := by
  obtain ⟨n, hn⟩ := t
  cases n with
  | zero => exact absurd (Nat.zero_mod _) h0
  | succ n => exact (if_neg h0).trans ((if_neg h7).trans rfl)

theorem accAt1_C (c : Dev nD) (t : Fin cfg1.N) (h7 : t.val % 8 = 7) :
    accAt1 V c t.val t.isLt = finG (mergeG (iblk1 V c 0 t) (iblk1 V c 1 t) (accAt1 V c (t.val - 1) (Nat.lt_of_le_of_lt (Nat.sub_le _ _) t.isLt))) := by
  obtain ⟨n, hn⟩ := t
  cases n with
  | zero => dsimp only at h7; omega
  | succ n => exact (if_neg (fun h => by dsimp only at h7; omega)).trans ((if_pos h7).trans rfl)

/-- The proof data of the call on core `c`: the arrays as the call finds them; after the body each input's buffer at its
    block and the output's at `accAt1`; the scoped rest and the generator register untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- Off column tile 0 the output block's buffer holds what the body left at the point before: the block is
    written back only after column tile 7, and the output is stored at every point. -/
theorem before1_2_kept (c : Dev nD) (t : Fin cfg1.N) (h0 : ¬ t.val % 8 = 0) (d) :
    (dat1 V c).before 2 t d = accAt1 V c (t.val - 1) (Nat.lt_of_le_of_lt (Nat.sub_le _ _) t.isLt) := by
  rw [Dat.before_out_kept _ 2 rfl t (by omega) (Bool.eq_false_iff.mpr fun h => by have := (flush1_2 _).mp h; dsimp only at this; omega)
    live1_2 (fun _ _ => rfl)]
  dsimp only [dat1]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 1000000 in
/-- The body at any point: which column tile the point is decides the case; off column tile 0 the output's buffer
    holds what the point before left. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  by_cases h0 : t.val % 8 = 0
  · rw [accAt1_A V c t h0]
    iintro ⟨HΦ, Ho, ⟨%d0, H0⟩, ⟨%d1, H1⟩, ⟨%d2, H2⟩⟩
    iapply (sound1_A c Set.univ (grid1.coords t) _ _ _ _ _ _ ((hcne1 t).mpr h0) (fun h => (hcne2 t).mp h h0)
      (fun h => by have := (hcne3 t).mp h; omega) (iblk1 V c 0 t) (iblk1 V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · simp only [before1_2_kept V c t h0]
    by_cases h7 : t.val % 8 = 7
    · rw [accAt1_C V c t h7]
      iintro ⟨HΦ, Ho, ⟨%d0, H0⟩, ⟨%d1, H1⟩, ⟨%d2, H2⟩⟩
      iapply (sound1_C c Set.univ (grid1.coords t) _ _ _ _ _ _ (fun h => h0 ((hcne1 t).mp h)) ((hcne2 t).mpr h0)
        ((hcne3 t).mpr h7) (iblk1 V c 0 t) (iblk1 V c 1 t) _ _)
      isplitl [H0]; · iexact H0
      isplitl [H1]; · iexact H1
      isplitl [H2]; · iexact H2
      iintro ⟨H0, H1, H2⟩
      isplitl [HΦ]; · iexact HΦ
      isplitl [Ho]; · iexact Ho
      isplitl [H0]; · iexact H0
      isplitl [H1]; · iexact H1
      iexact H2
    · rw [accAt1_B V c t h0 h7]
      iintro ⟨HΦ, Ho, ⟨%d0, H0⟩, ⟨%d1, H1⟩, ⟨%d2, H2⟩⟩
      iapply (sound1_B c Set.univ (grid1.coords t) _ _ _ _ _ _ (fun h => h0 ((hcne1 t).mp h)) ((hcne2 t).mpr h0)
        (fun h => h7 ((hcne3 t).mp h)) (iblk1 V c 0 t) (iblk1 V c 1 t) _ _)
      isplitl [H0]; · iexact H0
      isplitl [H1]; · iexact H1
      isplitl [H2]; · iexact H2
      iintro ⟨H0, H1, H2⟩
      isplitl [HΦ]; · iexact HΦ
      isplitl [Ho]; · iexact Ho
      isplitl [H0]; · iexact H0
      isplitl [H1]; · iexact H1
      iexact H2

set_option maxHeartbeats 1000000 in
/-- The body obligation at every point. The output window is live at every point (`live1_2`). -/
theorem body_obligation1 (c : Dev nD) : BodyObligation (dat1 (F := F) V c) (defs₀ (F := F)) Variants.none () Set.univ := fun t => by
  rw [bigSep_W1, bigSep_W1]
  have hi : cfg1.idle 2 (cfg1.grid.coords t) = false := live1_2 _
  rw [hi]
  exact sound_body1 V c t

end Region

end Cert.Kernel.Gen.Hand

end
-- ==== Proof.KRun.lean ====
import proofs.«158981_j11493332484300_2_alg».proof.Proof.KBody0
import proofs.«158981_j11493332484300_2_alg».proof.Proof.KBody1
import proofs.«158981_j11493332484300_2_alg».proof.Proof.Gen.Kernel.Regions

set_option maxRecDepth 16384

noncomputable section

namespace Cert.Kernel.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-!
  # The whole run

  The program is: two transposes, the first nearest-neighbour call, two transposes, the second call, and the
  means and the sum on the host. The buffers' contents at each of the six boundaries are a fold from the launch
  memory: a host stretch applies its operations; a call leaves its output array at what its write-backs leave and
  every other buffer as it found it.
-/

/-- Core `c`'s buffers at launch. -/
abbrev W0 : Dev nD → Valuation τ sig (Elt F) := fun c b => (s₀ m ρ).mem ((c : Dev nD), b)
/-- After the first two transposes: what the first call is entered with. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first call. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second pair of transposes: what the second call is entered with. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second call. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host tail: the final contents. -/
abbrev W5 : Dev nD → Valuation τ sig (Elt F) := fun c => StableHlo.after hostOps2 (W4 m ρ c)

/-! ### A buffer no stretch writes and no call changes keeps its contents -/

theorem W1_of (c : Dev nD) (r : Ref sig .tc) (h : r ∉ hostOps0_W) : W1 m ρ c r = W0 m ρ c r :=
  StableHlo.after_of_writes_sub hostOps0 _ hostOps0_writes h
theorem W3_of (c : Dev nD) (r : Ref sig .tc) (h : r ∉ hostOps1_W) : W3 m ρ c r = W2 m ρ c r :=
  StableHlo.after_of_writes_sub hostOps1 _ hostOps1_writes h
theorem W5_of (c : Dev nD) (r : Ref sig .tc) (h : r ∉ hostOps2_W) : W5 m ρ c r = W4 m ρ c r :=
  StableHlo.after_of_writes_sub hostOps2 _ hostOps2_writes h

/-- The first argument ends as launched. -/
theorem W5_main_arg0 (c : Dev nD) : W5 m ρ c (Proc.devRef .tc main_arg0) = m ((c : Thread nD τ).loc main_arg0) :=
  (W5_of m ρ c main_arg0 (by decide)).trans <| (W4_of_ne m ρ c main_arg0 (by decide)).trans <|
    (W3_of m ρ c main_arg0 (by decide)).trans <| (W2_of_ne m ρ c main_arg0 (by decide)).trans <|
    (W1_of m ρ c main_arg0 (by decide)).trans rfl
/-- The second argument ends as launched. -/
theorem W5_main_arg1 (c : Dev nD) : W5 m ρ c (Proc.devRef .tc main_arg1) = m ((c : Thread nD τ).loc main_arg1) :=
  (W5_of m ρ c main_arg1 (by decide)).trans <| (W4_of_ne m ρ c main_arg1 (by decide)).trans <|
    (W3_of m ρ c main_arg1 (by decide)).trans <| (W2_of_ne m ρ c main_arg1 (by decide)).trans <|
    (W1_of m ρ c main_arg1 (by decide)).trans rfl

/-! ## The proof data family and the thread state -/

abbrev admH : (p : Fin 2) → (pcfgs (F := F) p).Adm := fun p => (cfgs p).toPCfg_adm
/-- Each call's proof data at its entry contents. -/
def pdats : (p : Fin 2) → (c : Dev nD) → Dat τ (Elt F) Unit ℕ (UR sig nD τ) ℕ (Pipeline.pin (pcfgs (F := F)) admH p) c
  | ⟨0, _⟩ => fun c => dat0 (V1 m ρ) c
  | ⟨1, _⟩ => fun c => dat1 (V3 m ρ) c
abbrev 𝒱₀ : Variants := Variants.none
abbrev Lz : GSem nD τ sig → Finset Unit := fun _ => ∅
abbrev lvz : GSem nD τ sig → Unit → ℕ := fun _ _ => 0
/-- What rides beside the buffers: the generator register at some state, and nothing owed. -/
abbrev Rz (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rz

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tn (c : Dev nD) : sProp 𝕄 := iprop(StableHlo.held (c : Thread nD τ) (Pipeline.ucRefs τ sig) (W5 m ρ c) ∗ ∃ r, prngReg c r)

/-! ## The calls as segments -/

set_option backward.isDefEq.respectTransparency.types false in
/-- The first call over the thread state: entered from every unscoped buffer at `W1`, left at `W2`. -/
def reg0 : Pipeline.RegionSeg (pcfgs (F := F)) admH (pdats m ρ) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ Lz lvz 0 fun _ _ => rfl
  pre c := iprop(StableHlo.held (c : Thread nD τ) (Pipeline.ucRefs τ sig) (W1 m ρ c) ∗ Rz c)
  post c := iprop(StableHlo.held (c : Thread nD τ) (Pipeline.ucRefs τ sig) (W2 m ρ c) ∗ Rz c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call over the thread state: entered from every unscoped buffer at `W3`, left at `W4`. -/
def reg1 : Pipeline.RegionSeg (pcfgs (F := F)) admH (pdats m ρ) () defs₀ 𝒱₀ Lz lvz 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ Lz lvz 1 fun _ _ => rfl
  pre c := iprop(StableHlo.held (c : Thread nD τ) (Pipeline.ucRefs τ sig) (W3 m ρ c) ∗ Rz c)
  post c := iprop(StableHlo.held (c : Thread nD τ) (Pipeline.ucRefs τ sig) (W4 m ρ c) ∗ Rz c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segsH : List (Pipeline.Seg (pcfgs (F := F)) admH (pdats m ρ) () defs₀ 𝒱₀ Lz lvz) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

theorem main_run (c : Dev nD) : main (F := F) c = Pipeline.Seg.run (segsH m ρ) := (main_chain c).trans (by chain_rfl)

set_option backward.isDefEq.respectTransparency.types false in
/-- THE RUN: from any memory with zero counters every weakly fair execution of the program terminates, nothing
    faulting, and every final memory holds every unscoped buffer at the last boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) admH (pdats m ρ) () cellOf_inj emb₁ defs₀ 𝒱₀ Lz lvz m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rz c)) (Tₙ := Tn m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ Rz c)
        ⊢ iprop(Tn m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach Lz lvz fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- THE FRAME: the argument arrays end as launched. -/
theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W5_main_arg0 m ρ c),
     (h c _ (mem_uc main_arg1 (by decide))).trans (W5_main_arg1 m ρ c)⟩) (run_all m ρ)

end Cert.Kernel.Gen.Hand

end
-- ==== Proof.KIBody0.lean ====
import proofs.«158981_j11493332484300_2_alg».proof.Proof.Gen.KernelIdeal.Launch
import proofs.«158981_j11493332484300_2_alg».proof.Proof.Gen.KernelIdeal.Skeleton
import proofs.«158981_j11493332484300_2_alg».proof.Proof.Gen.KernelIdeal.Points
import proofs.«158981_j11493332484300_2_alg».proof.Proof.LibWholeStore
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
  # The first nearest-neighbour call: its body at every grid point

  The grid is 16 row tiles by 8 column tiles, visited row tile by row tile. At column tile 0 the body stores the
  tile's least squared distance into the output block; at every later column tile it merges the tile's least
  squared distance into the block by a pointwise minimum; at the last column tile (7) it then clamps the block
  below at zero and takes the square root. So the block holds, after column tile j of row tile i, the least
  squared distance over the column tiles 0..j, and after the last one its clamped root.
-/

/-! ## The body's three values -/

/-- The tile's least squared distance, per batch and query point. -/
def tileF (x0 : Vec F S4x3x512 .f32) (x1 : Vec F S4x3x1024 .f32) : Vec F S4x512 .f32 :=
  k0_pay1 (k0_pay4 x0) (k0_pay5 x1) (k0_pay6 x0) (k0_pay7 x1) (k0_pay8 x0 x1) (k0_pay9 x0) (k0_pay10 x1)

/-- The running minimum merged with the tile's. -/
def mergeF (x0 : Vec F S4x3x512 .f32) (x1 : Vec F S4x3x1024 .f32) (acc : Vec F S4x512 .f32) : Vec F S4x512 .f32 :=
  k0_pay2 (k0_pay4 x0) (k0_pay5 x1) (k0_pay6 x0) (k0_pay7 x1) (k0_pay8 x0 x1) (k0_pay9 x0) (k0_pay10 x1) acc

/-- Clamped below at zero, then the square root. -/
def finF (acc : Vec F S4x512 .f32) : Vec F S4x512 .f32 := k0_pay3 acc

/-! ## Which column tile a point is -/

theorem cond1_col : ∀ j : Fin 8, (Scalar.cmpi .ne (Scalar.extui (Scalar.cmpi .eq (BitVec.ofNat 32 j.val) 0#32) : BitVec 32) 0#32 = 1#1) ↔ j.val = 0 := by decide
theorem cond2_col : ∀ j : Fin 8, (Scalar.cmpi .ne (Scalar.extui (Scalar.cmpi .ne (BitVec.ofNat 32 j.val) 0#32) : BitVec 32) 0#32 = 1#1) ↔ ¬ j.val = 0 := by decide

theorem k0_cond1_iff (i : grid0.Coords) : k0_cond1 i = 1#1 ↔ (i 1).val = 0 := by
  unfold k0_cond1; exact cond1_col (i 1)
theorem k0_cond2_iff (i : grid0.Coords) : k0_cond2 i = 1#1 ↔ ¬ (i 1).val = 0 := by
  unfold k0_cond2; exact cond2_col (i 1)

/-- At every point the first or the second condition holds: the output block is stored at every point. -/
theorem live0_2 (i : grid0.Coords) : cfg0.idle 2 i = false := by
  show (!(k0_cond1 i == 1#1) && !(k0_cond2 i == 1#1) && !(k0_cond3 i == 1#1)) = false
  by_cases h : (i 1).val = 0
  · have h1 : k0_cond1 i = 1#1 := (k0_cond1_iff i).mpr h
    simp [h1]
  · have h2 : k0_cond2 i = 1#1 := (k0_cond2_iff i).mpr h
    simp [h2]

/-- The first condition holds at column tile 0 only, -/
theorem hcnd1 : ∀ t : Fin cfg0.N, k0_cond1 (grid0.coords t) = 1#1 ↔ t.val % 8 = 0 :=
  (by decide +kernel : ∀ t : Fin grid0.N, k0_cond1 (grid0.coords t) = 1#1 ↔ t.val % 8 = 0)
/-- the second at every other, -/
theorem hcnd2 : ∀ t : Fin cfg0.N, k0_cond2 (grid0.coords t) = 1#1 ↔ ¬ t.val % 8 = 0 :=
  (by decide +kernel : ∀ t : Fin grid0.N, k0_cond2 (grid0.coords t) = 1#1 ↔ ¬ t.val % 8 = 0)
/-- the third at the last. -/
theorem hcnd3 : ∀ t : Fin cfg0.N, k0_cond3 (grid0.coords t) = 1#1 ↔ t.val % 8 = 7 :=
  (by decide +kernel : ∀ t : Fin grid0.N, k0_cond3 (grid0.coords t) = 1#1 ↔ t.val % 8 = 7)

/-! ## The body's run in each of the three cases -/

theorem off2 : (![0, 0] : Fin S4x512.rank → Nat) = fun _ => 0 := by
  funext a; fin_cases a <;> rfl
theorem off3a : (![0, 0, 0] : Fin S4x3x512.rank → Nat) = fun _ => 0 := by
  funext a; fin_cases a <;> rfl
theorem off3b : (![0, 0, 0] : Fin S4x3x1024.rank → Nat) = fun _ => 0 := by
  funext a; fin_cases a <;> rfl

set_option maxHeartbeats 1000000 in
/-- Column tile 0: the output block ends at the tile's least squared distance, whatever it held. -/
theorem sound0_A (c : Dev nD) (E : Set ℕ) (i : grid0.Coords)
    (arg2 : Memref sig .tc .vmem S4x3x512 .f32) (harg2 : arg2.IsWhole) (arg3 : Memref sig .tc .vmem S4x3x1024 .f32) (harg3 : arg3.IsWhole)
    (arg4 : Memref sig .tc .vmem S4x512 .f32) (harg4 : arg4.IsWhole)
    (hc1 : k0_cond1 i = 1#1) (hc2 : ¬ k0_cond2 i = 1#1) (hc3 : ¬ k0_cond3 i = 1#1)
    (x0 : Vec F S4x3x512 .f32) (x1 : Vec F S4x3x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (tileF x0 x1)) -∗ K ⟨⟩))
      ⊢ wp frame (wpE (defs₀ (F := F)) Variants.none c none) E (cc0__nn_min_sq_kernel i arg2 harg2 arg3 harg3 arg4 harg4) K := by
  simp only [cc0__nn_min_sq_kernel_eq_skeleton]; unfold cc0__nn_min_sq_kernel_skel
  unfold owns
  iintro ⟨⟨%f0, %hf0, H0⟩, ⟨%f1, %hf1, H1⟩, ⟨%d2, %f2, -, H2⟩, Hk⟩
  subst hf0; subst hf1
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_cons_unit_zero _ _ off2]
  unfold tileF
  sl_unfold_words
  simp only [View.readAt_unit_zero (S := S4x3x512) _ _ off3a, View.readAt_unit_zero (S := S4x3x1024) _ _ off3b]

set_option maxHeartbeats 1000000 in
/-- A middle column tile: the output block, found at `xo`, ends at `xo` merged with the tile's. -/
theorem sound0_B (c : Dev nD) (E : Set ℕ) (i : grid0.Coords)
    (arg2 : Memref sig .tc .vmem S4x3x512 .f32) (harg2 : arg2.IsWhole) (arg3 : Memref sig .tc .vmem S4x3x1024 .f32) (harg3 : arg3.IsWhole)
    (arg4 : Memref sig .tc .vmem S4x512 .f32) (harg4 : arg4.IsWhole)
    (hc1 : ¬ k0_cond1 i = 1#1) (hc2 : k0_cond2 i = 1#1) (hc3 : ¬ k0_cond3 i = 1#1)
    (x0 : Vec F S4x3x512 .f32) (x1 : Vec F S4x3x1024 .f32) (xo : Vec F S4x512 .f32) (K : PUnit → sProp 𝕄) :
    iprop(owns (c : Thread nD τ) arg2 fullShare x0 ∗ owns (c : Thread nD τ) arg3 fullShare x1 ∗ owns (c : Thread nD τ) arg4 fullShare xo
        ∗ (iprop(owns (c : Thread nD τ) arg2 fullShare x0 ∗ owns (c : Thread nD τ) arg3 fullShare x1 ∗ owns (c : Thread nD τ) arg4 fullShare (mergeF x0 x1 xo)) -∗ K ⟨⟩))
      ⊢ wp frame (wpE (defs₀ (F := F)) Variants.none c none) E (cc0__nn_min_sq_kernel i arg2 harg2 arg3 harg3 arg4 harg4) K := by
  simp only [cc0__nn_min_sq_kernel_eq_skeleton]; unfold cc0__nn_min_sq_kernel_skel
  unfold owns
  iintro ⟨⟨%f0, %hf0, H0⟩, ⟨%f1, %hf1, H1⟩, ⟨%f2, %hf2, H2⟩, Hk⟩
  subst hf0; subst hf1; subst hf2
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_cons_unit_zero _ _ off2]
  unfold mergeF
  sl_unfold_words
  simp only [View.readAt_unit_zero (S := S4x3x512) _ _ off3a, View.readAt_unit_zero (S := S4x3x1024) _ _ off3b,
    View.readAt_unit_zero (S := S4x512) _ _ off2]

set_option maxHeartbeats 1000000 in
/-- The last column tile: the output block, found at `xo`, ends at the clamped root of `xo` merged with the tile's. -/
theorem sound0_C (c : Dev nD) (E : Set ℕ) (i : grid0.Coords)
    (arg2 : Memref sig .tc .vmem S4x3x512 .f32) (harg2 : arg2.IsWhole) (arg3 : Memref sig .tc .vmem S4x3x1024 .f32) (harg3 : arg3.IsWhole)
    (arg4 : Memref sig .tc .vmem S4x512 .f32) (harg4 : arg4.IsWhole)
    (hc1 : ¬ k0_cond1 i = 1#1) (hc2 : k0_cond2 i = 1#1) (hc3 : k0_cond3 i = 1#1)
    (x0 : Vec F S4x3x512 .f32) (x1 : Vec F S4x3x1024 .f32) (xo : Vec F S4x512 .f32) (K : PUnit → sProp 𝕄) :
    iprop(owns (c : Thread nD τ) arg2 fullShare x0 ∗ owns (c : Thread nD τ) arg3 fullShare x1 ∗ owns (c : Thread nD τ) arg4 fullShare xo
        ∗ (iprop(owns (c : Thread nD τ) arg2 fullShare x0 ∗ owns (c : Thread nD τ) arg3 fullShare x1 ∗ owns (c : Thread nD τ) arg4 fullShare (finF (mergeF x0 x1 xo))) -∗ K ⟨⟩))
      ⊢ wp frame (wpE (defs₀ (F := F)) Variants.none c none) E (cc0__nn_min_sq_kernel i arg2 harg2 arg3 harg3 arg4 harg4) K := by
  simp only [cc0__nn_min_sq_kernel_eq_skeleton]; unfold cc0__nn_min_sq_kernel_skel
  unfold owns
  iintro ⟨⟨%f0, %hf0, H0⟩, ⟨%f1, %hf1, H1⟩, ⟨%f2, %hf2, H2⟩, Hk⟩
  subst hf0; subst hf1; subst hf2
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_cons_unit_zero _ _ off2]
  unfold finF mergeF
  sl_unfold_words
  simp only [View.readCov_unit_zero (S := S4x512) _ off2, View.readAt_unit_zero (S := S4x3x512) _ _ off3a,
    View.readAt_unit_zero (S := S4x3x1024) _ _ off3b, View.readAt_unit_zero (S := S4x512) _ _ off2]

/-! ## The windows' blocks and the proof data, at the contents `V` the call is entered with -/

section Region
variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The query window's buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The database window's buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- What the output block holds after the body at position `n`: by recursion on the point, restarting at every
    column tile 0, merging at the others, and rooting after the merge at column tile 7. -/
def accAt0 (c : Dev nD) : (n : ℕ) → n < cfg0.N → Vec F S4x512 .f32
  | 0, hn => tileF (iblk0 V c 0 ⟨0, hn⟩) (iblk0 V c 1 ⟨0, hn⟩)
  | n + 1, hn =>
    if (n + 1) % 8 = 0 then tileF (iblk0 V c 0 ⟨n + 1, hn⟩) (iblk0 V c 1 ⟨n + 1, hn⟩)
    else if (n + 1) % 8 = 7 then
      finF (mergeF (iblk0 V c 0 ⟨n + 1, hn⟩) (iblk0 V c 1 ⟨n + 1, hn⟩) (accAt0 c n (Nat.lt_of_succ_lt hn)))
    else mergeF (iblk0 V c 0 ⟨n + 1, hn⟩) (iblk0 V c 1 ⟨n + 1, hn⟩) (accAt0 c n (Nat.lt_of_succ_lt hn))

theorem accAt0_A (c : Dev nD) (t : Fin cfg0.N) (h0 : t.val % 8 = 0) :
    accAt0 V c t.val t.isLt = tileF (iblk0 V c 0 t) (iblk0 V c 1 t) := by
  obtain ⟨n, hn⟩ := t
  cases n with
  | zero => rfl
  | succ n => exact (if_pos h0).trans rfl

theorem accAt0_B (c : Dev nD) (t : Fin cfg0.N) (h0 : ¬ t.val % 8 = 0) (h7 : ¬ t.val % 8 = 7) :
    accAt0 V c t.val t.isLt = mergeF (iblk0 V c 0 t) (iblk0 V c 1 t) (accAt0 V c (t.val - 1) (Nat.lt_of_le_of_lt (Nat.sub_le _ _) t.isLt)) := by
  obtain ⟨n, hn⟩ := t
  cases n with
  | zero => exact absurd (Nat.zero_mod _) h0
  | succ n => exact (if_neg h0).trans ((if_neg h7).trans rfl)

theorem accAt0_C (c : Dev nD) (t : Fin cfg0.N) (h7 : t.val % 8 = 7) :
    accAt0 V c t.val t.isLt = finF (mergeF (iblk0 V c 0 t) (iblk0 V c 1 t) (accAt0 V c (t.val - 1) (Nat.lt_of_le_of_lt (Nat.sub_le _ _) t.isLt))) := by
  obtain ⟨n, hn⟩ := t
  cases n with
  | zero => dsimp only at h7; omega
  | succ n => exact (if_neg (fun h => by dsimp only at h7; omega)).trans ((if_pos h7).trans rfl)

/-- The proof data of the call on core `c`: the arrays as the call finds them; after the body each input's buffer at its
    block and the output's at `accAt0`; the scoped rest and the generator register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => accAt0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = accAt0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- Off column tile 0 the output block's buffer holds what the body left at the point before: the block is
    written back only after column tile 7, and the output is stored at every point. -/
theorem before0_2_kept (c : Dev nD) (t : Fin cfg0.N) (h0 : ¬ t.val % 8 = 0) (d) :
    (dat0 V c).before 2 t d = accAt0 V c (t.val - 1) (Nat.lt_of_le_of_lt (Nat.sub_le _ _) t.isLt) := by
  rw [Dat.before_out_kept _ 2 rfl t (by omega) (Bool.eq_false_iff.mpr fun h => by have := (flush0_2 _).mp h; dsimp only at this; omega)
    live0_2 (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 1000000 in
/-- The body at any point: which column tile the point is decides the case; off column tile 0 the output's buffer
    holds what the point before left. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  by_cases h0 : t.val % 8 = 0
  · rw [accAt0_A V c t h0]
    iintro ⟨HΦ, Ho, ⟨%d0, H0⟩, ⟨%d1, H1⟩, ⟨%d2, H2⟩⟩
    iapply (sound0_A c Set.univ (grid0.coords t) _ _ _ _ _ _ ((hcnd1 t).mpr h0) (fun h => (hcnd2 t).mp h h0)
      (fun h => by have := (hcnd3 t).mp h; omega) (iblk0 V c 0 t) (iblk0 V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · simp only [before0_2_kept V c t h0]
    by_cases h7 : t.val % 8 = 7
    · rw [accAt0_C V c t h7]
      iintro ⟨HΦ, Ho, ⟨%d0, H0⟩, ⟨%d1, H1⟩, ⟨%d2, H2⟩⟩
      iapply (sound0_C c Set.univ (grid0.coords t) _ _ _ _ _ _ (fun h => h0 ((hcnd1 t).mp h)) ((hcnd2 t).mpr h0)
        ((hcnd3 t).mpr h7) (iblk0 V c 0 t) (iblk0 V c 1 t) _ _)
      isplitl [H0]; · iexact H0
      isplitl [H1]; · iexact H1
      isplitl [H2]; · iexact H2
      iintro ⟨H0, H1, H2⟩
      isplitl [HΦ]; · iexact HΦ
      isplitl [Ho]; · iexact Ho
      isplitl [H0]; · iexact H0
      isplitl [H1]; · iexact H1
      iexact H2
    · rw [accAt0_B V c t h0 h7]
      iintro ⟨HΦ, Ho, ⟨%d0, H0⟩, ⟨%d1, H1⟩, ⟨%d2, H2⟩⟩
      iapply (sound0_B c Set.univ (grid0.coords t) _ _ _ _ _ _ (fun h => h0 ((hcnd1 t).mp h)) ((hcnd2 t).mpr h0)
        (fun h => h7 ((hcnd3 t).mp h)) (iblk0 V c 0 t) (iblk0 V c 1 t) _ _)
      isplitl [H0]; · iexact H0
      isplitl [H1]; · iexact H1
      isplitl [H2]; · iexact H2
      iintro ⟨H0, H1, H2⟩
      isplitl [HΦ]; · iexact HΦ
      isplitl [Ho]; · iexact Ho
      isplitl [H0]; · iexact H0
      isplitl [H1]; · iexact H1
      iexact H2

set_option maxHeartbeats 1000000 in
/-- The body obligation at every point. The output window is live at every point (`live0_2`). -/
theorem body_obligation0 (c : Dev nD) : BodyObligation (dat0 (F := F) V c) (defs₀ (F := F)) Variants.none () Set.univ := fun t => by
  rw [bigSep_W0, bigSep_W0]
  have hi : cfg0.idle 2 (cfg0.grid.coords t) = false := live0_2 _
  rw [hi]
  exact sound_body0 V c t

end Region

end Cert.KernelIdeal.Gen.Hand

end
-- ==== Proof.KIBody1.lean ====
import proofs.«158981_j11493332484300_2_alg».proof.Proof.Gen.KernelIdeal.Launch
import proofs.«158981_j11493332484300_2_alg».proof.Proof.Gen.KernelIdeal.Skeleton
import proofs.«158981_j11493332484300_2_alg».proof.Proof.Gen.KernelIdeal.Points
import proofs.«158981_j11493332484300_2_alg».proof.Proof.LibWholeStore
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
  # The second nearest-neighbour call: its body at every grid point

  The grid is 16 row tiles by 8 column tiles, visited row tile by row tile. At column tile 0 the body stores the
  tile's least squared distance into the output block; at every later column tile it merges the tile's least
  squared distance into the block by a pointwise minimum; at the last column tile (7) it then clamps the block
  below at zero and takes the square root. So the block holds, after column tile j of row tile i, the least
  squared distance over the column tiles 0..j, and after the last one its clamped root.
-/

/-! ## The body's three values -/

/-- The tile's least squared distance, per batch and query point. -/
def tileG (x0 : Vec F S4x3x512 .f32) (x1 : Vec F S4x3x1024 .f32) : Vec F S4x512 .f32 :=
  k1_pay1 (k1_pay4 x0) (k1_pay5 x1) (k1_pay6 x0) (k1_pay7 x1) (k1_pay8 x0 x1) (k1_pay9 x0) (k1_pay10 x1)

/-- The running minimum merged with the tile's. -/
def mergeG (x0 : Vec F S4x3x512 .f32) (x1 : Vec F S4x3x1024 .f32) (acc : Vec F S4x512 .f32) : Vec F S4x512 .f32 :=
  k1_pay2 (k1_pay4 x0) (k1_pay5 x1) (k1_pay6 x0) (k1_pay7 x1) (k1_pay8 x0 x1) (k1_pay9 x0) (k1_pay10 x1) acc

/-- Clamped below at zero, then the square root. -/
def finG (acc : Vec F S4x512 .f32) : Vec F S4x512 .f32 := k1_pay3 acc

/-! ## Which column tile a point is -/

theorem condb1_col : ∀ j : Fin 8, (Scalar.cmpi .ne (Scalar.extui (Scalar.cmpi .eq (BitVec.ofNat 32 j.val) 0#32) : BitVec 32) 0#32 = 1#1) ↔ j.val = 0 := by decide
theorem condb2_col : ∀ j : Fin 8, (Scalar.cmpi .ne (Scalar.extui (Scalar.cmpi .ne (BitVec.ofNat 32 j.val) 0#32) : BitVec 32) 0#32 = 1#1) ↔ ¬ j.val = 0 := by decide

theorem k1_cond1_iff (i : grid1.Coords) : k1_cond1 i = 1#1 ↔ (i 1).val = 0 := by
  unfold k1_cond1; exact condb1_col (i 1)
theorem k1_cond2_iff (i : grid1.Coords) : k1_cond2 i = 1#1 ↔ ¬ (i 1).val = 0 := by
  unfold k1_cond2; exact condb2_col (i 1)

/-- At every point the first or the second condition holds: the output block is stored at every point. -/
theorem live1_2 (i : grid1.Coords) : cfg1.idle 2 i = false := by
  show (!(k1_cond1 i == 1#1) && !(k1_cond2 i == 1#1) && !(k1_cond3 i == 1#1)) = false
  by_cases h : (i 1).val = 0
  · have h1 : k1_cond1 i = 1#1 := (k1_cond1_iff i).mpr h
    simp [h1]
  · have h2 : k1_cond2 i = 1#1 := (k1_cond2_iff i).mpr h
    simp [h2]

/-- The first condition holds at column tile 0 only, -/
theorem hcne1 : ∀ t : Fin cfg1.N, k1_cond1 (grid1.coords t) = 1#1 ↔ t.val % 8 = 0 :=
  (by decide +kernel : ∀ t : Fin grid1.N, k1_cond1 (grid1.coords t) = 1#1 ↔ t.val % 8 = 0)
/-- the second at every other, -/
theorem hcne2 : ∀ t : Fin cfg1.N, k1_cond2 (grid1.coords t) = 1#1 ↔ ¬ t.val % 8 = 0 :=
  (by decide +kernel : ∀ t : Fin grid1.N, k1_cond2 (grid1.coords t) = 1#1 ↔ ¬ t.val % 8 = 0)
/-- the third at the last. -/
theorem hcne3 : ∀ t : Fin cfg1.N, k1_cond3 (grid1.coords t) = 1#1 ↔ t.val % 8 = 7 :=
  (by decide +kernel : ∀ t : Fin grid1.N, k1_cond3 (grid1.coords t) = 1#1 ↔ t.val % 8 = 7)

/-! ## The body's run in each of the three cases -/

theorem offb2 : (![0, 0] : Fin S4x512.rank → Nat) = fun _ => 0 := by
  funext a; fin_cases a <;> rfl
theorem offb3a : (![0, 0, 0] : Fin S4x3x512.rank → Nat) = fun _ => 0 := by
  funext a; fin_cases a <;> rfl
theorem offb3b : (![0, 0, 0] : Fin S4x3x1024.rank → Nat) = fun _ => 0 := by
  funext a; fin_cases a <;> rfl

set_option maxHeartbeats 1000000 in
/-- Column tile 0: the output block ends at the tile's least squared distance, whatever it held. -/
theorem sound1_A (c : Dev nD) (E : Set ℕ) (i : grid1.Coords)
    (arg2 : Memref sig .tc .vmem S4x3x512 .f32) (harg2 : arg2.IsWhole) (arg3 : Memref sig .tc .vmem S4x3x1024 .f32) (harg3 : arg3.IsWhole)
    (arg4 : Memref sig .tc .vmem S4x512 .f32) (harg4 : arg4.IsWhole)
    (hc1 : k1_cond1 i = 1#1) (hc2 : ¬ k1_cond2 i = 1#1) (hc3 : ¬ k1_cond3 i = 1#1)
    (x0 : Vec F S4x3x512 .f32) (x1 : Vec F S4x3x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (tileG x0 x1)) -∗ K ⟨⟩))
      ⊢ wp frame (wpE (defs₀ (F := F)) Variants.none c none) E (cc1__nn_min_sq_kernel i arg2 harg2 arg3 harg3 arg4 harg4) K := by
  simp only [cc1__nn_min_sq_kernel_eq_skeleton]; unfold cc1__nn_min_sq_kernel_skel
  unfold owns
  iintro ⟨⟨%f0, %hf0, H0⟩, ⟨%f1, %hf1, H1⟩, ⟨%d2, %f2, -, H2⟩, Hk⟩
  subst hf0; subst hf1
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_cons_unit_zero _ _ offb2]
  unfold tileG
  sl_unfold_words
  simp only [View.readAt_unit_zero (S := S4x3x512) _ _ offb3a, View.readAt_unit_zero (S := S4x3x1024) _ _ offb3b]

set_option maxHeartbeats 1000000 in
/-- A middle column tile: the output block, found at `xo`, ends at `xo` merged with the tile's. -/
theorem sound1_B (c : Dev nD) (E : Set ℕ) (i : grid1.Coords)
    (arg2 : Memref sig .tc .vmem S4x3x512 .f32) (harg2 : arg2.IsWhole) (arg3 : Memref sig .tc .vmem S4x3x1024 .f32) (harg3 : arg3.IsWhole)
    (arg4 : Memref sig .tc .vmem S4x512 .f32) (harg4 : arg4.IsWhole)
    (hc1 : ¬ k1_cond1 i = 1#1) (hc2 : k1_cond2 i = 1#1) (hc3 : ¬ k1_cond3 i = 1#1)
    (x0 : Vec F S4x3x512 .f32) (x1 : Vec F S4x3x1024 .f32) (xo : Vec F S4x512 .f32) (K : PUnit → sProp 𝕄) :
    iprop(owns (c : Thread nD τ) arg2 fullShare x0 ∗ owns (c : Thread nD τ) arg3 fullShare x1 ∗ owns (c : Thread nD τ) arg4 fullShare xo
        ∗ (iprop(owns (c : Thread nD τ) arg2 fullShare x0 ∗ owns (c : Thread nD τ) arg3 fullShare x1 ∗ owns (c : Thread nD τ) arg4 fullShare (mergeG x0 x1 xo)) -∗ K ⟨⟩))
      ⊢ wp frame (wpE (defs₀ (F := F)) Variants.none c none) E (cc1__nn_min_sq_kernel i arg2 harg2 arg3 harg3 arg4 harg4) K := by
  simp only [cc1__nn_min_sq_kernel_eq_skeleton]; unfold cc1__nn_min_sq_kernel_skel
  unfold owns
  iintro ⟨⟨%f0, %hf0, H0⟩, ⟨%f1, %hf1, H1⟩, ⟨%f2, %hf2, H2⟩, Hk⟩
  subst hf0; subst hf1; subst hf2
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_cons_unit_zero _ _ offb2]
  unfold mergeG
  sl_unfold_words
  simp only [View.readAt_unit_zero (S := S4x3x512) _ _ offb3a, View.readAt_unit_zero (S := S4x3x1024) _ _ offb3b,
    View.readAt_unit_zero (S := S4x512) _ _ offb2]

set_option maxHeartbeats 1000000 in
/-- The last column tile: the output block, found at `xo`, ends at the clamped root of `xo` merged with the tile's. -/
theorem sound1_C (c : Dev nD) (E : Set ℕ) (i : grid1.Coords)
    (arg2 : Memref sig .tc .vmem S4x3x512 .f32) (harg2 : arg2.IsWhole) (arg3 : Memref sig .tc .vmem S4x3x1024 .f32) (harg3 : arg3.IsWhole)
    (arg4 : Memref sig .tc .vmem S4x512 .f32) (harg4 : arg4.IsWhole)
    (hc1 : ¬ k1_cond1 i = 1#1) (hc2 : k1_cond2 i = 1#1) (hc3 : k1_cond3 i = 1#1)
    (x0 : Vec F S4x3x512 .f32) (x1 : Vec F S4x3x1024 .f32) (xo : Vec F S4x512 .f32) (K : PUnit → sProp 𝕄) :
    iprop(owns (c : Thread nD τ) arg2 fullShare x0 ∗ owns (c : Thread nD τ) arg3 fullShare x1 ∗ owns (c : Thread nD τ) arg4 fullShare xo
        ∗ (iprop(owns (c : Thread nD τ) arg2 fullShare x0 ∗ owns (c : Thread nD τ) arg3 fullShare x1 ∗ owns (c : Thread nD τ) arg4 fullShare (finG (mergeG x0 x1 xo))) -∗ K ⟨⟩))
      ⊢ wp frame (wpE (defs₀ (F := F)) Variants.none c none) E (cc1__nn_min_sq_kernel i arg2 harg2 arg3 harg3 arg4 harg4) K := by
  simp only [cc1__nn_min_sq_kernel_eq_skeleton]; unfold cc1__nn_min_sq_kernel_skel
  unfold owns
  iintro ⟨⟨%f0, %hf0, H0⟩, ⟨%f1, %hf1, H1⟩, ⟨%f2, %hf2, H2⟩, Hk⟩
  subst hf0; subst hf1; subst hf2
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_cons_unit_zero _ _ offb2]
  unfold finG mergeG
  sl_unfold_words
  simp only [View.readCov_unit_zero (S := S4x512) _ offb2, View.readAt_unit_zero (S := S4x3x512) _ _ offb3a,
    View.readAt_unit_zero (S := S4x3x1024) _ _ offb3b, View.readAt_unit_zero (S := S4x512) _ _ offb2]

/-! ## The windows' blocks and the proof data, at the contents `V` the call is entered with -/

section Region
variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The database window's buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- What the output block holds after the body at position `n`: by recursion on the point, restarting at every
    column tile 0, merging at the others, and rooting after the merge at column tile 7. -/
def accAt1 (c : Dev nD) : (n : ℕ) → n < cfg1.N → Vec F S4x512 .f32
  | 0, hn => tileG (iblk1 V c 0 ⟨0, hn⟩) (iblk1 V c 1 ⟨0, hn⟩)
  | n + 1, hn =>
    if (n + 1) % 8 = 0 then tileG (iblk1 V c 0 ⟨n + 1, hn⟩) (iblk1 V c 1 ⟨n + 1, hn⟩)
    else if (n + 1) % 8 = 7 then
      finG (mergeG (iblk1 V c 0 ⟨n + 1, hn⟩) (iblk1 V c 1 ⟨n + 1, hn⟩) (accAt1 c n (Nat.lt_of_succ_lt hn)))
    else mergeG (iblk1 V c 0 ⟨n + 1, hn⟩) (iblk1 V c 1 ⟨n + 1, hn⟩) (accAt1 c n (Nat.lt_of_succ_lt hn))

theorem accAt1_A (c : Dev nD) (t : Fin cfg1.N) (h0 : t.val % 8 = 0) :
    accAt1 V c t.val t.isLt = tileG (iblk1 V c 0 t) (iblk1 V c 1 t) := by
  obtain ⟨n, hn⟩ := t
  cases n with
  | zero => rfl
  | succ n => exact (if_pos h0).trans rfl

theorem accAt1_B (c : Dev nD) (t : Fin cfg1.N) (h0 : ¬ t.val % 8 = 0) (h7 : ¬ t.val % 8 = 7) :
    accAt1 V c t.val t.isLt = mergeG (iblk1 V c 0 t) (iblk1 V c 1 t) (accAt1 V c (t.val - 1) (Nat.lt_of_le_of_lt (Nat.sub_le _ _) t.isLt)) := by
  obtain ⟨n, hn⟩ := t
  cases n with
  | zero => exact absurd (Nat.zero_mod _) h0
  | succ n => exact (if_neg h0).trans ((if_neg h7).trans rfl)

theorem accAt1_C (c : Dev nD) (t : Fin cfg1.N) (h7 : t.val % 8 = 7) :
    accAt1 V c t.val t.isLt = finG (mergeG (iblk1 V c 0 t) (iblk1 V c 1 t) (accAt1 V c (t.val - 1) (Nat.lt_of_le_of_lt (Nat.sub_le _ _) t.isLt))) := by
  obtain ⟨n, hn⟩ := t
  cases n with
  | zero => dsimp only at h7; omega
  | succ n => exact (if_neg (fun h => by dsimp only at h7; omega)).trans ((if_pos h7).trans rfl)

/-- The proof data of the call on core `c`: the arrays as the call finds them; after the body each input's buffer at its
    block and the output's at `accAt1`; the scoped rest and the generator register untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- Off column tile 0 the output block's buffer holds what the body left at the point before: the block is
    written back only after column tile 7, and the output is stored at every point. -/
theorem before1_2_kept (c : Dev nD) (t : Fin cfg1.N) (h0 : ¬ t.val % 8 = 0) (d) :
    (dat1 V c).before 2 t d = accAt1 V c (t.val - 1) (Nat.lt_of_le_of_lt (Nat.sub_le _ _) t.isLt) := by
  rw [Dat.before_out_kept _ 2 rfl t (by omega) (Bool.eq_false_iff.mpr fun h => by have := (flush1_2 _).mp h; dsimp only at this; omega)
    live1_2 (fun _ _ => rfl)]
  dsimp only [dat1]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 1000000 in
/-- The body at any point: which column tile the point is decides the case; off column tile 0 the output's buffer
    holds what the point before left. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  by_cases h0 : t.val % 8 = 0
  · rw [accAt1_A V c t h0]
    iintro ⟨HΦ, Ho, ⟨%d0, H0⟩, ⟨%d1, H1⟩, ⟨%d2, H2⟩⟩
    iapply (sound1_A c Set.univ (grid1.coords t) _ _ _ _ _ _ ((hcne1 t).mpr h0) (fun h => (hcne2 t).mp h h0)
      (fun h => by have := (hcne3 t).mp h; omega) (iblk1 V c 0 t) (iblk1 V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · simp only [before1_2_kept V c t h0]
    by_cases h7 : t.val % 8 = 7
    · rw [accAt1_C V c t h7]
      iintro ⟨HΦ, Ho, ⟨%d0, H0⟩, ⟨%d1, H1⟩, ⟨%d2, H2⟩⟩
      iapply (sound1_C c Set.univ (grid1.coords t) _ _ _ _ _ _ (fun h => h0 ((hcne1 t).mp h)) ((hcne2 t).mpr h0)
        ((hcne3 t).mpr h7) (iblk1 V c 0 t) (iblk1 V c 1 t) _ _)
      isplitl [H0]; · iexact H0
      isplitl [H1]; · iexact H1
      isplitl [H2]; · iexact H2
      iintro ⟨H0, H1, H2⟩
      isplitl [HΦ]; · iexact HΦ
      isplitl [Ho]; · iexact Ho
      isplitl [H0]; · iexact H0
      isplitl [H1]; · iexact H1
      iexact H2
    · rw [accAt1_B V c t h0 h7]
      iintro ⟨HΦ, Ho, ⟨%d0, H0⟩, ⟨%d1, H1⟩, ⟨%d2, H2⟩⟩
      iapply (sound1_B c Set.univ (grid1.coords t) _ _ _ _ _ _ (fun h => h0 ((hcne1 t).mp h)) ((hcne2 t).mpr h0)
        (fun h => h7 ((hcne3 t).mp h)) (iblk1 V c 0 t) (iblk1 V c 1 t) _ _)
      isplitl [H0]; · iexact H0
      isplitl [H1]; · iexact H1
      isplitl [H2]; · iexact H2
      iintro ⟨H0, H1, H2⟩
      isplitl [HΦ]; · iexact HΦ
      isplitl [Ho]; · iexact Ho
      isplitl [H0]; · iexact H0
      isplitl [H1]; · iexact H1
      iexact H2

set_option maxHeartbeats 1000000 in
/-- The body obligation at every point. The output window is live at every point (`live1_2`). -/
theorem body_obligation1 (c : Dev nD) : BodyObligation (dat1 (F := F) V c) (defs₀ (F := F)) Variants.none () Set.univ := fun t => by
  rw [bigSep_W1, bigSep_W1]
  have hi : cfg1.idle 2 (cfg1.grid.coords t) = false := live1_2 _
  rw [hi]
  exact sound_body1 V c t

end Region

end Cert.KernelIdeal.Gen.Hand

end
-- ==== Proof.KIRun.lean ====
import proofs.«158981_j11493332484300_2_alg».proof.Proof.KIBody0
import proofs.«158981_j11493332484300_2_alg».proof.Proof.KIBody1
import proofs.«158981_j11493332484300_2_alg».proof.Proof.Gen.KernelIdeal.Regions

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-!
  # The whole run

  The program is: two transposes, the first nearest-neighbour call, two transposes, the second call, and the
  means and the sum on the host. The buffers' contents at each of the six boundaries are a fold from the launch
  memory: a host stretch applies its operations; a call leaves its output array at what its write-backs leave and
  every other buffer as it found it.
-/

/-- Core `c`'s buffers at launch. -/
abbrev W0 : Dev nD → Valuation τ sig (Elt F) := fun c b => (s₀ m ρ).mem ((c : Dev nD), b)
/-- After the first two transposes: what the first call is entered with. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first call. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second pair of transposes: what the second call is entered with. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second call. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host tail: the final contents. -/
abbrev W5 : Dev nD → Valuation τ sig (Elt F) := fun c => StableHlo.after hostOps2 (W4 m ρ c)

/-! ### A buffer no stretch writes and no call changes keeps its contents -/

theorem W1_of (c : Dev nD) (r : Ref sig .tc) (h : r ∉ hostOps0_W) : W1 m ρ c r = W0 m ρ c r :=
  StableHlo.after_of_writes_sub hostOps0 _ hostOps0_writes h
theorem W3_of (c : Dev nD) (r : Ref sig .tc) (h : r ∉ hostOps1_W) : W3 m ρ c r = W2 m ρ c r :=
  StableHlo.after_of_writes_sub hostOps1 _ hostOps1_writes h
theorem W5_of (c : Dev nD) (r : Ref sig .tc) (h : r ∉ hostOps2_W) : W5 m ρ c r = W4 m ρ c r :=
  StableHlo.after_of_writes_sub hostOps2 _ hostOps2_writes h

/-- The first argument ends as launched. -/
theorem W5_main_arg0 (c : Dev nD) : W5 m ρ c (Proc.devRef .tc main_arg0) = m ((c : Thread nD τ).loc main_arg0) :=
  (W5_of m ρ c main_arg0 (by decide)).trans <| (W4_of_ne m ρ c main_arg0 (by decide)).trans <|
    (W3_of m ρ c main_arg0 (by decide)).trans <| (W2_of_ne m ρ c main_arg0 (by decide)).trans <|
    (W1_of m ρ c main_arg0 (by decide)).trans rfl
/-- The second argument ends as launched. -/
theorem W5_main_arg1 (c : Dev nD) : W5 m ρ c (Proc.devRef .tc main_arg1) = m ((c : Thread nD τ).loc main_arg1) :=
  (W5_of m ρ c main_arg1 (by decide)).trans <| (W4_of_ne m ρ c main_arg1 (by decide)).trans <|
    (W3_of m ρ c main_arg1 (by decide)).trans <| (W2_of_ne m ρ c main_arg1 (by decide)).trans <|
    (W1_of m ρ c main_arg1 (by decide)).trans rfl

/-! ## The proof data family and the thread state -/

abbrev admH : (p : Fin 2) → (pcfgs (F := F) p).Adm := fun p => (cfgs p).toPCfg_adm
/-- Each call's proof data at its entry contents. -/
def pdats : (p : Fin 2) → (c : Dev nD) → Dat τ (Elt F) Unit ℕ (UR sig nD τ) ℕ (Pipeline.pin (pcfgs (F := F)) admH p) c
  | ⟨0, _⟩ => fun c => dat0 (V1 m ρ) c
  | ⟨1, _⟩ => fun c => dat1 (V3 m ρ) c
abbrev 𝒱₀ : Variants := Variants.none
abbrev Lz : GSem nD τ sig → Finset Unit := fun _ => ∅
abbrev lvz : GSem nD τ sig → Unit → ℕ := fun _ _ => 0
/-- What rides beside the buffers: the generator register at some state, and nothing owed. -/
abbrev Rz (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rz

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tn (c : Dev nD) : sProp 𝕄 := iprop(StableHlo.held (c : Thread nD τ) (Pipeline.ucRefs τ sig) (W5 m ρ c) ∗ ∃ r, prngReg c r)

/-! ## The calls as segments -/

set_option backward.isDefEq.respectTransparency.types false in
/-- The first call over the thread state: entered from every unscoped buffer at `W1`, left at `W2`. -/
def reg0 : Pipeline.RegionSeg (pcfgs (F := F)) admH (pdats m ρ) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ Lz lvz 0 fun _ _ => rfl
  pre c := iprop(StableHlo.held (c : Thread nD τ) (Pipeline.ucRefs τ sig) (W1 m ρ c) ∗ Rz c)
  post c := iprop(StableHlo.held (c : Thread nD τ) (Pipeline.ucRefs τ sig) (W2 m ρ c) ∗ Rz c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call over the thread state: entered from every unscoped buffer at `W3`, left at `W4`. -/
def reg1 : Pipeline.RegionSeg (pcfgs (F := F)) admH (pdats m ρ) () defs₀ 𝒱₀ Lz lvz 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ Lz lvz 1 fun _ _ => rfl
  pre c := iprop(StableHlo.held (c : Thread nD τ) (Pipeline.ucRefs τ sig) (W3 m ρ c) ∗ Rz c)
  post c := iprop(StableHlo.held (c : Thread nD τ) (Pipeline.ucRefs τ sig) (W4 m ρ c) ∗ Rz c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segsH : List (Pipeline.Seg (pcfgs (F := F)) admH (pdats m ρ) () defs₀ 𝒱₀ Lz lvz) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

theorem main_run (c : Dev nD) : main (F := F) c = Pipeline.Seg.run (segsH m ρ) := (main_chain c).trans (by chain_rfl)

set_option backward.isDefEq.respectTransparency.types false in
/-- THE RUN: from any memory with zero counters every weakly fair execution of the program terminates, nothing
    faulting, and every final memory holds every unscoped buffer at the last boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) admH (pdats m ρ) () cellOf_inj emb₁ defs₀ 𝒱₀ Lz lvz m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rz c)) (Tₙ := Tn m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ Rz c)
        ⊢ iprop(Tn m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach Lz lvz fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- THE FRAME: the argument arrays end as launched. -/
theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W5_main_arg0 m ρ c),
     (h c _ (mem_uc main_arg1 (by decide))).trans (W5_main_arg1 m ρ c)⟩) (run_all m ρ)

end Cert.KernelIdeal.Gen.Hand

end
-- ==== Proof.Tail.lean ====
/-
  The host tail both programs end with: per batch, the mean over the 8192 points of each of the two distance
  arrays (a sum from zero, divided by 8192), the two means added, and the four batch values summed from zero.
  It is carried as one function of the two distance arrays and never opened.
-/
import Idealize.ShloMosaic.PureOps
import Idealize.ShloMosaic.PureOps.Ideal

noncomputable section

namespace Cert.Nearest

open Idealize.ShloMosaic

/-- Batch by point. -/
abbrev SD : Shape := ⟨2, ![4, 8192]⟩
/-- Batch. -/
abbrev SB : Shape := ⟨1, ![4]⟩
/-- A scalar. -/
abbrev S0 : Shape := ⟨0, ![]⟩

/-- Mean of `u` per batch plus mean of `w` per batch, summed over the batches. -/
def tailF (h1 : SD.ReducesTo [1] SB) (h0 : 0 < S0.numel) (hb : S0.BroadcastsInDim SB (![] : Fin 0 → Fin SB.rank))
    (h2 : SB.ReducesTo [0] S0) (u w : FVec Ideal SD .f32) : FVec Ideal S0 .f32 :=
  Host.reduceAdd (F := Ideal)
    (addf (F := Ideal)
      (Host.divf (F := Ideal) (Host.reduceAdd (F := Ideal) u (constant (F := Ideal) S0 .f32 0x00000000#32) h1 h0)
        (broadcastInDim SB ![] hb (constant (F := Ideal) S0 .f32 0x46000000#32)))
      (Host.divf (F := Ideal) (Host.reduceAdd (F := Ideal) w (constant (F := Ideal) S0 .f32 0x00000000#32) h1 h0)
        (broadcastInDim SB ![] hb (constant (F := Ideal) S0 .f32 0x46000000#32))))
    (constant (F := Ideal) S0 .f32 0x00000000#32) h2 h0

end Cert.Nearest

end
-- ==== Proof.KIEnds.lean ====
import proofs.«158981_j11493332484300_2_alg».proof.Proof.KIRun
import proofs.«158981_j11493332484300_2_alg».proof.Proof.Tail
import Idealize.ShloMosaic.Lib.ValueLayout
import Idealize.ShloMosaic.Lib.ValueIdx
import Idealize.ShloMosaic.Lib.StableHlo.Run

noncomputable section

namespace Cert.KernelIdeal.Gen.Hand

open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-!
  # What the host stretches hold, at the ideal instance

  Each call's two input arrays are transposes of the argument clouds: entry (batch, coordinate, point) of the
  transposed array is entry (batch, point, coordinate) of the cloud. The first call takes the first cloud as
  queries and the second as database; the second call takes them the other way round. The final scalar is the
  shared tail of the second call's distances and the first call's.
-/

/-- The first argument survives the first call. -/
theorem W2_arg0 (c : Dev nD) : W2 m ρ c (Proc.devRef .tc main_arg0) = m ((c : Thread nD τ).loc main_arg0) :=
  (W2_of_ne m ρ c main_arg0 (by decide)).trans ((W1_of m ρ c main_arg0 (by decide)).trans rfl)
/-- The second argument survives the first call. -/
theorem W2_arg1 (c : Dev nD) : W2 m ρ c (Proc.devRef .tc main_arg1) = m ((c : Thread nD τ).loc main_arg1) :=
  (W2_of_ne m ρ c main_arg1 (by decide)).trans ((W1_of m ρ c main_arg1 (by decide)).trans rfl)

/-- The first call's query array is the first cloud transposed. -/
theorem V1_v0 (c : Dev nD) (β : Fin 4) (d : Fin 3) (n : Fin 8192) :
    V1 m ρ c main_v0 (ix3 β d n) = m ((c : Thread nD τ).loc main_arg0) (ix3 β n d) := by
  have e : (V1 m ρ c main_v0 : S4x3x8192.Idx → EReal)
      = transpose S4x3x8192 [0, 2, 1] (m ((c : Thread nD τ).loc main_arg0)) transposes_S4x8192x3_S4x3x8192_0_2_1 := by
    show StableHlo.after hostOps0 (W0 m ρ c) (Proc.devRef .tc main_v0) = _
    after_results
  rw [e]
  exact transpose_ix3_021_apply _ _ β d n

/-- The first call's database array is the second cloud transposed. -/
theorem V1_v1 (c : Dev nD) (β : Fin 4) (d : Fin 3) (n : Fin 8192) :
    V1 m ρ c main_v1 (ix3 β d n) = m ((c : Thread nD τ).loc main_arg1) (ix3 β n d) := by
  have e : (V1 m ρ c main_v1 : S4x3x8192.Idx → EReal)
      = transpose S4x3x8192 [0, 2, 1] (m ((c : Thread nD τ).loc main_arg1)) transposes_S4x8192x3_S4x3x8192_0_2_1 := by
    show StableHlo.after hostOps0 (W0 m ρ c) (Proc.devRef .tc main_v1) = _
    after_results
  rw [e]
  exact transpose_ix3_021_apply _ _ β d n

/-- The second call's query array is the second cloud transposed. -/
theorem V3_v3 (c : Dev nD) (β : Fin 4) (d : Fin 3) (n : Fin 8192) :
    V3 m ρ c main_v3 (ix3 β d n) = m ((c : Thread nD τ).loc main_arg1) (ix3 β n d) := by
  have e : (V3 m ρ c main_v3 : S4x3x8192.Idx → EReal)
      = transpose S4x3x8192 [0, 2, 1] (W2 m ρ c (Proc.devRef .tc main_arg1)) transposes_S4x8192x3_S4x3x8192_0_2_1 := by
    show StableHlo.after hostOps1 (W2 m ρ c) (Proc.devRef .tc main_v3) = _
    after_results
  rw [e, W2_arg1]
  exact transpose_ix3_021_apply _ _ β d n

/-- The second call's database array is the first cloud transposed. -/
theorem V3_v4 (c : Dev nD) (β : Fin 4) (d : Fin 3) (n : Fin 8192) :
    V3 m ρ c main_v4 (ix3 β d n) = m ((c : Thread nD τ).loc main_arg0) (ix3 β n d) := by
  have e : (V3 m ρ c main_v4 : S4x3x8192.Idx → EReal)
      = transpose S4x3x8192 [0, 2, 1] (W2 m ρ c (Proc.devRef .tc main_arg0)) transposes_S4x8192x3_S4x3x8192_0_2_1 := by
    show StableHlo.after hostOps1 (W2 m ρ c) (Proc.devRef .tc main_v4) = _
    after_results
  rw [e, W2_arg0]
  exact transpose_ix3_021_apply _ _ β d n

/-- The first call's distances reach the tail unchanged. -/
theorem W4_v2 (c : Dev nD) : W4 m ρ c (Proc.devRef .tc main_v2) = (dat0 (V1 m ρ) c).arrAt 2 cfg0.N :=
  (W4_of_ne m ρ c main_v2 (by decide)).trans ((W3_of m ρ c main_v2 (by decide)).trans (W2_arr m ρ c 2))
/-- The second call's distances. -/
theorem W4_v5 (c : Dev nD) : W4 m ρ c (Proc.devRef .tc main_v5) = (dat1 (V3 m ρ) c).arrAt 2 cfg1.N :=
  W4_arr m ρ c 2

/-- The final scalar is the shared tail of the second call's distances and the first call's. -/
theorem W5_v13 (c : Dev nD) :
    W5 m ρ c (Proc.devRef .tc main_v13)
      = Cert.Nearest.tailF reducesTo_S4x8192_S4_d1 h_S_ bcast_S_S4 reducesTo_S4_S_d0
          (W4 m ρ c (Proc.devRef .tc main_v5)) (W4 m ρ c (Proc.devRef .tc main_v2)) := by
  show StableHlo.after hostOps2 (W4 m ρ c) (Proc.devRef .tc main_v13) = _
  after_results; rfl

end Cert.KernelIdeal.Gen.Hand

end
-- ==== Proof.Spec.lean ====
/-
  The nearest-neighbour distances both programs compute, as functions of the two point clouds.

  A cloud holds, for each of 4 batches, 8192 points of 3 coordinates. For a query point a = (a0, a1, a2) and a
  database point b = (b0, b1, b2) the squared distance is taken in the expanded form
      (|a|^2 + |b|^2) - 2 * <a, b>,     |a|^2 = (a0*a0 + a1*a1) + a2*a2,   <a, b> = (a0*b0 + a1*b1) + a2*b2,
  on the extended reals, grouped as written. The distance from a query point to a cloud is the square root, after
  clamping below at zero, of the least squared distance over the cloud's points.
-/
import Idealize.ShloMosaic.PureOps.Ideal
import Idealize.ShloMosaic.Lib.ValueIdx

noncomputable section

namespace Cert.Nearest

open Idealize.ShloMosaic Idealize.ShloMosaic.ValueIdx

/-- A point cloud: batch, point, coordinate. -/
abbrev Cloud : Type := (⟨3, ![4, 8192, 3]⟩ : Shape).Idx → EReal
/-- One distance per batch and point. -/
abbrev Dists : Type := (⟨2, ![4, 8192]⟩ : Shape).Idx → EReal

/-- The literal two. -/
def two : EReal := Ideal.ofBits .f32 0x40000000#32
/-- The literal zero. -/
def zero : EReal := Ideal.ofBits .f32 0x00000000#32

/-- |a|^2, grouped from the left. -/
def sq3 (a0 a1 a2 : EReal) : EReal := (a0 * a0 + a1 * a1) + a2 * a2
/-- <a, b>, grouped from the left. -/
def dot3 (a0 a1 a2 b0 b1 b2 : EReal) : EReal := (a0 * b0 + a1 * b1) + a2 * b2
/-- The squared distance between a and b in expanded form. -/
def d2pt (a0 a1 a2 b0 b1 b2 : EReal) : EReal :=
  (sq3 a0 a1 a2 + sq3 b0 b1 b2) - two * dot3 a0 a1 a2 b0 b1 b2

/-- Clamp below at zero, then take the square root. -/
def root (x : EReal) : EReal := Ideal.sqrt (max x zero)

/-- The squared distance between point n of p and point m of q, in batch β. -/
def d2 (p q : Cloud) (β : Fin 4) (n m : Fin 8192) : EReal :=
  d2pt (p (ix3 β n (0 : Fin 3))) (p (ix3 β n (1 : Fin 3))) (p (ix3 β n (2 : Fin 3)))
    (q (ix3 β m (0 : Fin 3))) (q (ix3 β m (1 : Fin 3))) (q (ix3 β m (2 : Fin 3)))

/-- The distance from point n of p to the cloud q, in batch β. -/
def nn (p q : Cloud) (β : Fin 4) (n : Fin 8192) : EReal :=
  root ((Finset.univ : Finset (Fin 8192)).inf fun m => d2 p q β n m)

/-- The same as an array over batch and point. -/
def nnArr (p q : Cloud) : Dists :=
  fun i => nn p q ⟨(i 0).val, (i 0).isLt⟩ ⟨(i 1).val, (i 1).isLt⟩

theorem nnArr_ix2 (p q : Cloud) (β : Fin 4) (n : Fin 8192) : nnArr p q (ix2 β n) = nn p q β n := rfl

/-! ## Order facts -/

/-- The square root on the extended reals is monotone: below zero it is the bottom element. -/
theorem sqrt_mono : Monotone Ideal.sqrt := by
  intro x y hxy
  induction x using EReal.rec with
  | bot => simp
  | top => rw [top_le_iff.mp hxy]
  | coe r =>
    induction y using EReal.rec with
    | bot => exact absurd hxy (by simp)
    | top => simp
    | coe s =>
      have hrs : r ≤ s := EReal.coe_le_coe_iff.mp hxy
      simp only [Ideal.sqrt_coe]
      by_cases hr : r < 0
      · simp [hr]
      · have hs : ¬ s < 0 := fun h => hr (lt_of_le_of_lt hrs h)
        simp only [hr, hs, if_false]
        exact EReal.coe_le_coe_iff.mpr (Real.sqrt_le_sqrt hrs)

/-- Clamping then rooting is monotone. -/
theorem root_mono : Monotone root := fun _ _ h => sqrt_mono (max_le_max h le_rfl)

/-- Clamping then rooting commutes with a minimum of two. -/
theorem root_min (x y : EReal) : root (min x y) = min (root x) (root y) := root_mono.map_min

end Cert.Nearest

end
-- ==== Proof.TileValue.lean ====
/-
  The kernel's arithmetic read at one index of a tile.

  A query block holds, per batch, three coordinate rows of 512 points; a database block three rows of 1024 points. For
  a query point a and a database point b the body forms (|a|^2 + |b|^2) - 2 * <a, b>, with |a|^2 = (a0*a0 + a1*a1) + a2*a2
  and <a, b> = (a0*b0 + a1*b1) + a2*b2, takes the least value over the 1024 database points of the block starting from
  +inf, merges it into a running minimum, and at the end clamps below at zero and takes the square root. Every
  statement below reads one of these values at (batch, point).
-/
import proofs.«158981_j11493332484300_2_alg».proof.Proof.Gen.KernelIdeal.Skeleton
import proofs.«158981_j11493332484300_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.TileValue

open Idealize.ShloMosaic Idealize.ShloMosaic.ValueIdx
open Cert.KernelIdeal Cert.KernelIdeal.Gen

/-! ## Layout operations at an index: a unit axis in the middle or at the end -/

section Layout
variable {α : Type}

/-- An `[a, 1, b]` array cast to `[a, b]` reads, at `(i, j)`, the operand at `(i, 0, j)`: the two row-major positions
    are `(i * 1 + 0) * b + j` and `i * b + j`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b]` array cast to `[a, 1, b]` reads, at `(i, u, j)`, the operand at `(i, j)`, whatever the unit coordinate. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b]` array cast to `[a, b, 1]` reads, at `(i, j, u)`, the operand at `(i, j)`, whatever the unit coordinate. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand's one entry of row `(i, j)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, k)`, the operand's one row at `(i, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- Row `d` of an `[a, m, n]` array as an `[a, n]` array — the slice of extent one at `[0, o, 0]` with its unit axis
    dropped — reads, at `(i, j)`, the array at `(i, d, j)`, `d` the row at offset `o`. -/
theorem row_apply {a m n : ℕ} (o : ℕ) (X : (⟨3, ![a, m, n]⟩ : Shape).Idx → α)
    (hs : (⟨3, ![a, m, n]⟩ : Shape).Slices ![0, o, 0] ⟨3, ![a, 1, n]⟩)
    (hc : (⟨3, ![a, 1, n]⟩ : Shape).ShapeCasts ⟨2, ![a, n]⟩) (i : Fin a) (j : Fin n) (d : Fin m) (hd : d.val = o) :
    shapeCast ⟨2, ![a, n]⟩ (extractStridedSlice ⟨3, ![a, 1, n]⟩ ![0, o, 0] X hs) hc (ix2 i j) = X (ix3 i d j) :=
  (shapeCast_a1b_ab_apply _ hc i j).trans (slice3_axis1_apply o X hs i (0 : Fin 1) j d (by rw [hd]; rfl))

/-- A matrix as a stack of one-entry rows, each spread along a new last axis of extent `c`: at `(i, j, k)` the matrix at `(i, j)`. -/
theorem spreadLast_apply {a b c : ℕ} (x : (⟨2, ![a, b]⟩ : Shape).Idx → α)
    (hc : (⟨2, ![a, b]⟩ : Shape).ShapeCasts ⟨3, ![a, b, 1]⟩) (hb : (⟨3, ![a, b, 1]⟩ : Shape).Broadcasts ⟨3, ![a, b, c]⟩)
    (i : Fin a) (j : Fin b) (k : Fin c) :
    broadcastTo ⟨3, ![a, b, c]⟩ (shapeCast ⟨3, ![a, b, 1]⟩ x hc) hb (ix3 i j k) = x (ix2 i j) :=
  (broadcastTo_ab1_abc_apply _ hb i j k).trans (shapeCast_ab_ab1_apply x hc i j 0)

/-- A matrix spread along a new middle axis of extent `b`: at `(i, j, k)` the matrix at `(i, k)`. -/
theorem spreadMid_apply {a b c : ℕ} (x : (⟨2, ![a, c]⟩ : Shape).Idx → α)
    (hc : (⟨2, ![a, c]⟩ : Shape).ShapeCasts ⟨3, ![a, 1, c]⟩) (hb : (⟨3, ![a, 1, c]⟩ : Shape).Broadcasts ⟨3, ![a, b, c]⟩)
    (i : Fin a) (j : Fin b) (k : Fin c) :
    broadcastTo ⟨3, ![a, b, c]⟩ (shapeCast ⟨3, ![a, 1, c]⟩ x hc) hb (ix3 i j k) = x (ix2 i k) :=
  (broadcastTo_a1c_abc_apply _ hb i j k).trans (shapeCast_ab_a1b_apply x hc i 0 k)

end Layout

/-! ## The least value over the lanes -/

/-- The word of `+inf` reads as the top element of the extended reals. -/
theorem ofBits_posInf : Ideal.ofBits .f32 0x7F800000#32 = (⊤ : EReal) := by simp [Ideal.ofBits, Ideal.ieee]

/-- The fold of the binary minimum from the top element over all of `Fin n` is the infimum of the family: that is the
    definition of a finite infimum. -/
theorem fold_min_eq_inf {n : ℕ} (f g : Fin n → EReal) (init : EReal) (hinit : init = ⊤) (hfg : ∀ l, f l = g l) :
    (Finset.univ : Finset (Fin n)).fold min init f = Finset.univ.inf g := by
  subst hinit
  obtain rfl : f = g := funext hfg
  rfl

/-- A minimum over the last axis of a `[4, 512, 1024]` array, started from `+inf`, is at `(β, r)` the infimum over the
    1024 lanes `l` of the array at `(β, r, l)`: the source indices over `(β, r)` are exactly the `(β, r, l)`, and a
    commutative and associative fold does not depend on their order. -/
theorem laneMin_apply (src : FVec Ideal S4x512x1024 .f32) (h : S4x512x1024.Reduces [2] S4x512)
    (hφ : FKind.Formats .f32) (hacc : (0x7F800000#32 : BitVec 32) = FKind.neutral .minimumf .f32 hφ)
    (β : Fin 4) (r : Fin 512) :
    multiReduction .minimumf [2] S4x512 src 0x7F800000#32 h hφ hacc (ix2 β r)
      = (Finset.univ : Finset (Fin 1024)).inf fun l => src (ix3 β r l) := by
  have hl : ∀ l : Fin 1024, h.lift (ix2 β r) l = ix3 β r l := fun l => by
    funext c
    match c with
    | ⟨0, _⟩ => rfl
    | ⟨1, _⟩ => rfl
    | ⟨2, _⟩ => rfl
  refine (multiReduction_minimumf_eq_fold src _ h hφ hacc (ix2 β r)).trans ?_
  refine (h.fold_filter_drop_single _ _ src (ix2 β r)).trans ?_
  exact fold_min_eq_inf (n := 1024) _ _ _ ofBits_posInf fun l => congrArg src (hl l)

/-- the tile's least squared distance -/
def tile0 (x0 : Vec Ideal S4x3x512 .f32) (x1 : Vec Ideal S4x3x1024 .f32) : FVec Ideal S4x512 .f32 :=
  k0_pay1 (k0_pay4 x0) (k0_pay5 x1) (k0_pay6 x0) (k0_pay7 x1) (k0_pay8 x0 x1) (k0_pay9 x0) (k0_pay10 x1)

/-- Merging a tile into the running minimum is the pointwise minimum: the cast of the accumulator to its own shape
    is the accumulator. -/
theorem merge0_apply (x0 : Vec Ideal S4x3x512 .f32) (x1 : Vec Ideal S4x3x1024 .f32) (acc : Vec Ideal S4x512 .f32)
    (β : Fin 4) (r : Fin 512) :
    k0_pay2 (k0_pay4 x0) (k0_pay5 x1) (k0_pay6 x0) (k0_pay7 x1) (k0_pay8 x0 x1) (k0_pay9 x0) (k0_pay10 x1) acc (ix2 β r)
      = min (acc (ix2 β r)) (tile0 x0 x1 (ix2 β r)) := by
  unfold k0_pay2
  rw [shapeCast_self]
  rfl

/-- The last step clamps the running minimum below at zero and takes the square root, pointwise. -/
theorem fin0_apply (acc : Vec Ideal S4x512 .f32) (β : Fin 4) (r : Fin 512) :
    k0_pay3 acc (ix2 β r) = Cert.Nearest.root (acc (ix2 β r)) := by
  unfold k0_pay3
  rw [shapeCast_self]
  rfl

/-! ## The pieces of the squared distance at an index (kernel 0) -/

/-- The query block cast to its own shape is the block. -/
theorem query0_eq (x0 : Vec Ideal S4x3x512 .f32) : k0_pay4 x0 = x0 := shapeCast_self x0 _
/-- The database block cast to its own shape is the block. -/
theorem base0_eq (x1 : Vec Ideal S4x3x1024 .f32) : k0_pay5 x1 = x1 := shapeCast_self x1 _

/-- |a|^2 of query point `r` of batch `β`. -/
theorem querySq0_apply (x0 : Vec Ideal S4x3x512 .f32) (β : Fin 4) (r : Fin 512) :
    k0_pay6 x0 (ix2 β r)
      = Cert.Nearest.sq3 (x0 (ix3 β (0 : Fin 3) r)) (x0 (ix3 β (1 : Fin 3) r)) (x0 (ix3 β (2 : Fin 3) r)) := by
  unfold k0_pay6
  simp only [query0_eq, addf_apply, mulf_apply, row_apply 0 _ _ _ _ _ (0 : Fin 3) rfl,
    row_apply 1 _ _ _ _ _ (1 : Fin 3) rfl, row_apply 2 _ _ _ _ _ (2 : Fin 3) rfl]
  rfl

/-- |b|^2 of database point `l` of batch `β`. -/
theorem baseSq0_apply (x1 : Vec Ideal S4x3x1024 .f32) (β : Fin 4) (l : Fin 1024) :
    k0_pay7 x1 (ix2 β l)
      = Cert.Nearest.sq3 (x1 (ix3 β (0 : Fin 3) l)) (x1 (ix3 β (1 : Fin 3) l)) (x1 (ix3 β (2 : Fin 3) l)) := by
  unfold k0_pay7
  simp only [base0_eq, addf_apply, mulf_apply, row_apply 0 _ _ _ _ _ (0 : Fin 3) rfl,
    row_apply 1 _ _ _ _ _ (1 : Fin 3) rfl, row_apply 2 _ _ _ _ _ (2 : Fin 3) rfl]
  rfl

/-- The first term of the dot product: a0 * b0. -/
theorem dotFst0_apply (x0 : Vec Ideal S4x3x512 .f32) (x1 : Vec Ideal S4x3x1024 .f32) (β : Fin 4) (r : Fin 512)
    (l : Fin 1024) :
    k0_pay8 x0 x1 (ix3 β r l) = x0 (ix3 β (0 : Fin 3) r) * x1 (ix3 β (0 : Fin 3) l) := by
  unfold k0_pay8
  simp only [query0_eq, base0_eq, mulf_apply, spreadLast_apply, spreadMid_apply,
    row_apply 0 _ _ _ _ _ (0 : Fin 3) rfl]

/-- The query's second coordinate as a column. -/
theorem querySnd0_apply (x0 : Vec Ideal S4x3x512 .f32) (β : Fin 4) (r : Fin 512) (u : Fin 1) :
    k0_pay9 x0 (ix3 β r u) = x0 (ix3 β (1 : Fin 3) r) := by
  unfold k0_pay9
  simp only [query0_eq, shapeCast_ab_ab1_apply, row_apply 1 _ _ _ _ _ (1 : Fin 3) rfl]

/-- The database's second coordinate as a matrix. -/
theorem baseSnd0_apply (x1 : Vec Ideal S4x3x1024 .f32) (β : Fin 4) (l : Fin 1024) :
    k0_pay10 x1 (ix2 β l) = x1 (ix3 β (1 : Fin 3) l) := by
  unfold k0_pay10
  simp only [base0_eq, row_apply 1 _ _ _ _ _ (1 : Fin 3) rfl]

/-! ## The tile's least squared distance (kernel 0) -/

/-- At `(β, r)` the tile's value is the infimum, over the 1024 database points of the block, of the squared distance
    in expanded form between query point `r` and database point `l`. -/
theorem tile0_apply (x0 : Vec Ideal S4x3x512 .f32) (x1 : Vec Ideal S4x3x1024 .f32) (β : Fin 4) (r : Fin 512) :
    tile0 x0 x1 (ix2 β r) = (Finset.univ : Finset (Fin 1024)).inf fun l =>
      Cert.Nearest.d2pt (x0 (ix3 β (0 : Fin 3) r)) (x0 (ix3 β (1 : Fin 3) r)) (x0 (ix3 β (2 : Fin 3) r))
        (x1 (ix3 β (0 : Fin 3) l)) (x1 (ix3 β (1 : Fin 3) l)) (x1 (ix3 β (2 : Fin 3) l)) := by
  unfold tile0 k0_pay1
  refine (laneMin_apply _ _ _ _ β r).trans (Finset.inf_congr rfl fun l _ => ?_)
  simp only [subf_apply, addf_apply, mulf_apply, broadcast_apply, spreadLast_apply, spreadMid_apply,
    broadcastTo_ab1_abc_apply, broadcastTo_a1c_abc_apply, shapeCast_ab_ab1_apply, shapeCast_ab_a1b_apply,
    query0_eq, base0_eq, querySq0_apply, baseSq0_apply, dotFst0_apply,
    querySnd0_apply, baseSnd0_apply, row_apply 2 _ _ _ _ _ (2 : Fin 3) rfl]
  rfl

/-- the tile's least squared distance -/
def tile1 (x0 : Vec Ideal S4x3x512 .f32) (x1 : Vec Ideal S4x3x1024 .f32) : FVec Ideal S4x512 .f32 :=
  k1_pay1 (k1_pay4 x0) (k1_pay5 x1) (k1_pay6 x0) (k1_pay7 x1) (k1_pay8 x0 x1) (k1_pay9 x0) (k1_pay10 x1)

/-- Merging a tile into the running minimum is the pointwise minimum: the cast of the accumulator to its own shape
    is the accumulator. -/
theorem merge1_apply (x0 : Vec Ideal S4x3x512 .f32) (x1 : Vec Ideal S4x3x1024 .f32) (acc : Vec Ideal S4x512 .f32)
    (β : Fin 4) (r : Fin 512) :
    k1_pay2 (k1_pay4 x0) (k1_pay5 x1) (k1_pay6 x0) (k1_pay7 x1) (k1_pay8 x0 x1) (k1_pay9 x0) (k1_pay10 x1) acc (ix2 β r)
      = min (acc (ix2 β r)) (tile1 x0 x1 (ix2 β r)) := by
  unfold k1_pay2
  rw [shapeCast_self]
  rfl

/-- The last step clamps the running minimum below at zero and takes the square root, pointwise. -/
theorem fin1_apply (acc : Vec Ideal S4x512 .f32) (β : Fin 4) (r : Fin 512) :
    k1_pay3 acc (ix2 β r) = Cert.Nearest.root (acc (ix2 β r)) := by
  unfold k1_pay3
  rw [shapeCast_self]
  rfl

/-! ## The pieces of the squared distance at an index (kernel 1) -/

/-- The query block cast to its own shape is the block. -/
theorem query1_eq (x0 : Vec Ideal S4x3x512 .f32) : k1_pay4 x0 = x0 := shapeCast_self x0 _
/-- The database block cast to its own shape is the block. -/
theorem base1_eq (x1 : Vec Ideal S4x3x1024 .f32) : k1_pay5 x1 = x1 := shapeCast_self x1 _

/-- |a|^2 of query point `r` of batch `β`. -/
theorem querySq1_apply (x0 : Vec Ideal S4x3x512 .f32) (β : Fin 4) (r : Fin 512) :
    k1_pay6 x0 (ix2 β r)
      = Cert.Nearest.sq3 (x0 (ix3 β (0 : Fin 3) r)) (x0 (ix3 β (1 : Fin 3) r)) (x0 (ix3 β (2 : Fin 3) r)) := by
  unfold k1_pay6
  simp only [query1_eq, addf_apply, mulf_apply, row_apply 0 _ _ _ _ _ (0 : Fin 3) rfl,
    row_apply 1 _ _ _ _ _ (1 : Fin 3) rfl, row_apply 2 _ _ _ _ _ (2 : Fin 3) rfl]
  rfl

/-- |b|^2 of database point `l` of batch `β`. -/
theorem baseSq1_apply (x1 : Vec Ideal S4x3x1024 .f32) (β : Fin 4) (l : Fin 1024) :
    k1_pay7 x1 (ix2 β l)
      = Cert.Nearest.sq3 (x1 (ix3 β (0 : Fin 3) l)) (x1 (ix3 β (1 : Fin 3) l)) (x1 (ix3 β (2 : Fin 3) l)) := by
  unfold k1_pay7
  simp only [base1_eq, addf_apply, mulf_apply, row_apply 0 _ _ _ _ _ (0 : Fin 3) rfl,
    row_apply 1 _ _ _ _ _ (1 : Fin 3) rfl, row_apply 2 _ _ _ _ _ (2 : Fin 3) rfl]
  rfl

/-- The first term of the dot product: a0 * b0. -/
theorem dotFst1_apply (x0 : Vec Ideal S4x3x512 .f32) (x1 : Vec Ideal S4x3x1024 .f32) (β : Fin 4) (r : Fin 512)
    (l : Fin 1024) :
    k1_pay8 x0 x1 (ix3 β r l) = x0 (ix3 β (0 : Fin 3) r) * x1 (ix3 β (0 : Fin 3) l) := by
  unfold k1_pay8
  simp only [query1_eq, base1_eq, mulf_apply, spreadLast_apply, spreadMid_apply,
    row_apply 0 _ _ _ _ _ (0 : Fin 3) rfl]

/-- The query's second coordinate as a column. -/
theorem querySnd1_apply (x0 : Vec Ideal S4x3x512 .f32) (β : Fin 4) (r : Fin 512) (u : Fin 1) :
    k1_pay9 x0 (ix3 β r u) = x0 (ix3 β (1 : Fin 3) r) := by
  unfold k1_pay9
  simp only [query1_eq, shapeCast_ab_ab1_apply, row_apply 1 _ _ _ _ _ (1 : Fin 3) rfl]

/-- The database's second coordinate as a matrix. -/
theorem baseSnd1_apply (x1 : Vec Ideal S4x3x1024 .f32) (β : Fin 4) (l : Fin 1024) :
    k1_pay10 x1 (ix2 β l) = x1 (ix3 β (1 : Fin 3) l) := by
  unfold k1_pay10
  simp only [base1_eq, row_apply 1 _ _ _ _ _ (1 : Fin 3) rfl]

/-! ## The tile's least squared distance (kernel 1) -/

/-- At `(β, r)` the tile's value is the infimum, over the 1024 database points of the block, of the squared distance
    in expanded form between query point `r` and database point `l`. -/
theorem tile1_apply (x0 : Vec Ideal S4x3x512 .f32) (x1 : Vec Ideal S4x3x1024 .f32) (β : Fin 4) (r : Fin 512) :
    tile1 x0 x1 (ix2 β r) = (Finset.univ : Finset (Fin 1024)).inf fun l =>
      Cert.Nearest.d2pt (x0 (ix3 β (0 : Fin 3) r)) (x0 (ix3 β (1 : Fin 3) r)) (x0 (ix3 β (2 : Fin 3) r))
        (x1 (ix3 β (0 : Fin 3) l)) (x1 (ix3 β (1 : Fin 3) l)) (x1 (ix3 β (2 : Fin 3) l)) := by
  unfold tile1 k1_pay1
  refine (laneMin_apply _ _ _ _ β r).trans (Finset.inf_congr rfl fun l _ => ?_)
  simp only [subf_apply, addf_apply, mulf_apply, broadcast_apply, spreadLast_apply, spreadMid_apply,
    broadcastTo_ab1_abc_apply, broadcastTo_a1c_abc_apply, shapeCast_ab_ab1_apply, shapeCast_ab_a1b_apply,
    query1_eq, base1_eq, querySq1_apply, baseSq1_apply, dotFst1_apply,
    querySnd1_apply, baseSnd1_apply, row_apply 2 _ _ _ _ _ (2 : Fin 3) rfl]
  rfl

end Cert.KernelIdeal.TileValue

end
-- ==== Proof.TileJoin.lean ====
/-
  The minimum over the eight column tiles is the minimum over all points.

  The 8192 points of a cloud are split into eight consecutive tiles of 1024: point mm lies in tile mm / 1024 at
  place mm % 1024. Taking the least value in each tile and then the running minimum of the eight tile values,
  grouped from the left, gives the infimum over all 8192 points: the running minimum is below each tile value, which
  is below each value of its tile; and the infimum over all points is below every tile value, so below their minimum.
-/
import proofs.«158981_j11493332484300_2_alg».proof.Proof.Spec

noncomputable section

namespace Cert.Nearest

/-- the least value over column tile j (1024 lanes) -/
def tileInf (g : Fin 8192 → EReal) (j : Fin 8) : EReal :=
  (Finset.univ : Finset (Fin 1024)).inf fun l => g ⟨1024 * j.val + l.val, by have := j.isLt; have := l.isLt; omega⟩

/-- The infimum over all points is below the least value of each tile. -/
theorem inf_le_tileInf (g : Fin 8192 → EReal) (j : Fin 8) : (Finset.univ : Finset (Fin 8192)).inf g ≤ tileInf g j :=
  Finset.le_inf fun _ _ => Finset.inf_le (Finset.mem_univ _)

/-- The least value of the tile that holds point mm is below the value at mm. -/
theorem tileInf_le (g : Fin 8192 → EReal) (mm : Fin 8192) :
    tileInf g ⟨mm.val / 1024, by have := mm.isLt; omega⟩ ≤ g mm := by
  have h := Finset.inf_le
    (f := fun l : Fin 1024 => g ⟨1024 * (mm.val / 1024) + l.val, by have := mm.isLt; have := l.isLt; omega⟩)
    (Finset.mem_univ (⟨mm.val % 1024, Nat.mod_lt _ (by decide)⟩ : Fin 1024))
  have e : g ⟨1024 * (mm.val / 1024) + mm.val % 1024, by have := mm.isLt; omega⟩ = g mm :=
    congrArg g (Fin.ext (by show 1024 * (mm.val / 1024) + mm.val % 1024 = mm.val; omega))
  exact le_of_le_of_eq h e

/-- A minimum of eight values, grouped from the left, is below each of them. -/
theorem nested_min_le (t : Fin 8 → EReal) (j : Fin 8) :
    min (min (min (min (min (min (min (t 0) (t 1)) (t 2)) (t 3)) (t 4)) (t 5)) (t 6)) (t 7) ≤ t j := by
  match j with
  | ⟨0, _⟩ =>
    exact (min_le_left _ _).trans <| (min_le_left _ _).trans <| (min_le_left _ _).trans <| (min_le_left _ _).trans <|
      (min_le_left _ _).trans <| (min_le_left _ _).trans <| min_le_left _ _
  | ⟨1, _⟩ =>
    exact (min_le_left _ _).trans <| (min_le_left _ _).trans <| (min_le_left _ _).trans <| (min_le_left _ _).trans <|
      (min_le_left _ _).trans <| (min_le_left _ _).trans <| min_le_right _ _
  | ⟨2, _⟩ =>
    exact (min_le_left _ _).trans <| (min_le_left _ _).trans <| (min_le_left _ _).trans <| (min_le_left _ _).trans <|
      (min_le_left _ _).trans <| min_le_right _ _
  | ⟨3, _⟩ =>
    exact (min_le_left _ _).trans <| (min_le_left _ _).trans <| (min_le_left _ _).trans <| (min_le_left _ _).trans <|
      min_le_right _ _
  | ⟨4, _⟩ => exact (min_le_left _ _).trans <| (min_le_left _ _).trans <| (min_le_left _ _).trans <| min_le_right _ _
  | ⟨5, _⟩ => exact (min_le_left _ _).trans <| (min_le_left _ _).trans <| min_le_right _ _
  | ⟨6, _⟩ => exact (min_le_left _ _).trans <| min_le_right _ _
  | ⟨7, _⟩ => exact min_le_right _ _

/-- The running minimum over the eight column tiles, grouped from the left, is the infimum over all 8192 points. -/
theorem join8 (g : Fin 8192 → EReal) :
    min (min (min (min (min (min (min (tileInf g 0) (tileInf g 1)) (tileInf g 2)) (tileInf g 3)) (tileInf g 4)) (tileInf g 5)) (tileInf g 6)) (tileInf g 7) = (Finset.univ : Finset (Fin 8192)).inf g := by
  apply le_antisymm
  · exact Finset.le_inf fun mm _ =>
      (nested_min_le (tileInf g) ⟨mm.val / 1024, by have := mm.isLt; omega⟩).trans (tileInf_le g mm)
  · exact le_min (le_min (le_min (le_min (le_min (le_min (le_min (inf_le_tileInf g 0) (inf_le_tileInf g 1))
      (inf_le_tileInf g 2)) (inf_le_tileInf g 3)) (inf_le_tileInf g 4)) (inf_le_tileInf g 5)) (inf_le_tileInf g 6))
      (inf_le_tileInf g 7)

/-- The same after clamping and rooting. -/
theorem root_join8 (g : Fin 8192 → EReal) : root (min (min (min (min (min (min (min (tileInf g 0) (tileInf g 1)) (tileInf g 2)) (tileInf g 3)) (tileInf g 4)) (tileInf g 5)) (tileInf g 6)) (tileInf g 7)) = root ((Finset.univ : Finset (Fin 8192)).inf g) := congrArg root (join8 g)

end Cert.Nearest

end
-- ==== Proof.KIValue0.lean ====
/-
  The first call's output array, after the run, holds the nearest-neighbour distances from the first cloud to the second.

  The grid is 16 row tiles by 8 column tiles; point t = 8 i + j is row tile i, column tile j. At t the query window holds
  points 512 i .. 512 i + 511 of the first (transposed) cloud, the database window points 1024 j .. 1024 j + 1023 of the
  second, and the output window is block (0, i) of the output array. The tile value at t, at query point r, is the least
  expanded squared distance from point 512 i + r to the 1024 points of column tile j. Along a row the output block holds
  the running minimum of the tile values, grouped from the left; after column tile 7 it is clamped and rooted. The running
  minimum over the eight column tiles is the infimum over all 8192 points, so the block written back after column tile 7
  is block (0, i) of the nearest-neighbour distances; these blocks cover the output array.
-/
import proofs.«158981_j11493332484300_2_alg».proof.Proof.KIBody0
import proofs.«158981_j11493332484300_2_alg».proof.Proof.TileValue
import proofs.«158981_j11493332484300_2_alg».proof.Proof.TileJoin
import proofs.«158981_j11493332484300_2_alg».proof.Proof.Spec
import Idealize.ShloMosaic.Lib.Pipeline.Value
import Idealize.ShloMosaic.Lib.ValueIdx

set_option maxRecDepth 16384

noncomputable section

namespace Cert.KernelIdeal.Gen.Hand

open Idealize.ShloMosaic Idealize.ShloMosaic.TcCoe Idealize.ShloMosaic.ValueIdx
open Idealize.SL.Sem
open Idealize.ShloMosaic.Pipeline (Dat Cfg Window)
open Cert.KernelIdeal.TileValue Cert.Nearest

/-! ## The index maps, decided once over the grid -/

/-- At point t = 8 i + j the query window is at block (0, 0, i), the database window at block (0, 0, j) and the
    output window at block (0, i). -/
theorem v0_idx : ∀ t : Fin cfg0.N,
    win0_0.index t (0 : Fin 3) = 0 ∧ win0_0.index t (1 : Fin 3) = 0 ∧ win0_0.index t (2 : Fin 3) = t.val / 8
    ∧ win0_1.index t (0 : Fin 3) = 0 ∧ win0_1.index t (1 : Fin 3) = 0 ∧ win0_1.index t (2 : Fin 3) = t.val % 8
    ∧ win0_2.index t (0 : Fin 2) = 0 ∧ win0_2.index t (1 : Fin 2) = t.val / 8 :=
  (by decide +kernel : ∀ t : Fin grid0.N, _)

section Region
variable (V : (c : Dev nD) → (b : Ref sig .tc) → Buf (Elt Ideal) ((c : Thread nD τ).loc b))

/-! ## The input blocks, read at an index -/

/-- The query block at point t holds points 512 (t / 8) .. 512 (t / 8) + 511 of the first array. -/
theorem v0_blk0 (c : Dev nD) (t : Fin cfg0.N) (β : Fin 4) (d : Fin 3) (r : Fin 512) :
    (iblk0 V c 0 t : Vec Ideal S4x3x512 .f32) (ix3 β d r)
      = V c main_v0 (ix3 β d (⟨512 * (t.val / 8) + r.val, by have := t.isLt; have hN : cfg0.N = 128 := N_0; have := r.isLt; omega⟩ : Fin 8192)) := by
  obtain ⟨e0, e1, e2, -⟩ := v0_idx t
  unfold iblk0
  rw [View.read_apply]
  show V c main_v0 _ = V c main_v0 _
  congr 1
  funext a
  apply Fin.ext
  match a with
  | ⟨0, _⟩ => show win0_0.index t (0 : Fin 3) * 4 + 1 * β.val = β.val; rw [e0]; omega
  | ⟨1, _⟩ => show win0_0.index t (1 : Fin 3) * 3 + 1 * d.val = d.val; rw [e1]; omega
  | ⟨2, _⟩ => show win0_0.index t (2 : Fin 3) * 512 + 1 * r.val = 512 * (t.val / 8) + r.val; rw [e2]; omega

/-- The database block at point t holds points 1024 (t % 8) .. 1024 (t % 8) + 1023 of the second array. -/
theorem v0_blk1 (c : Dev nD) (t : Fin cfg0.N) (β : Fin 4) (d : Fin 3) (l : Fin 1024) :
    (iblk0 V c 1 t : Vec Ideal S4x3x1024 .f32) (ix3 β d l)
      = V c main_v1 (ix3 β d (⟨1024 * (t.val % 8) + l.val, by have := l.isLt; omega⟩ : Fin 8192)) := by
  obtain ⟨-, -, -, e0, e1, e2, -⟩ := v0_idx t
  unfold iblk0
  rw [View.read_apply]
  show V c main_v1 _ = V c main_v1 _
  congr 1
  funext a
  apply Fin.ext
  match a with
  | ⟨0, _⟩ => show win0_1.index t (0 : Fin 3) * 4 + 1 * β.val = β.val; rw [e0]; omega
  | ⟨1, _⟩ => show win0_1.index t (1 : Fin 3) * 3 + 1 * d.val = d.val; rw [e1]; omega
  | ⟨2, _⟩ => show win0_1.index t (2 : Fin 3) * 1024 + 1 * l.val = 1024 * (t.val % 8) + l.val; rw [e2]; omega

/-! ## The output block's closed form along a row of the grid -/

section Row
variable (c : Dev nD) (a b : Cloud)
  (ha : ∀ (β : Fin 4) (d : Fin 3) (n : Fin 8192), V c main_v0 (ix3 β d n) = a (ix3 β n d))
  (hb : ∀ (β : Fin 4) (d : Fin 3) (n : Fin 8192), V c main_v1 (ix3 β d n) = b (ix3 β n d))
include ha hb

/-- The tile value at point t = 8 i + j, at query point r of the block: the least expanded squared distance from point
    512 i + r of the first cloud to the points of column tile j of the second. -/
theorem v0_tile (t : Fin cfg0.N) (i : ℕ) (j : Fin 8) (hi : t.val / 8 = i) (hj : t.val % 8 = j.val) (β : Fin 4) (r : Fin 512)
    (hq : 512 * i + r.val < 8192) :
    tile0 (iblk0 V c 0 t) (iblk0 V c 1 t) (ix2 β r)
      = tileInf (fun mm => d2 a b β (⟨512 * i + r.val, hq⟩ : Fin 8192) mm) j := by
  rw [tile0_apply]
  unfold tileInf d2
  refine Finset.inf_congr rfl fun l _ => ?_
  rw [v0_blk0, v0_blk0, v0_blk0, v0_blk1, v0_blk1, v0_blk1, ha, ha, ha, hb, hb, hb]
  have eq : (⟨512 * (t.val / 8) + r.val, by omega⟩ : Fin 8192) = ⟨512 * i + r.val, hq⟩ := Fin.ext (by show 512 * (t.val / 8) + r.val = 512 * i + r.val; rw [hi])
  have el : (⟨1024 * (t.val % 8) + l.val, by have := l.isLt; omega⟩ : Fin 8192) = ⟨1024 * j.val + l.val, by have := j.isLt; have := l.isLt; omega⟩ :=
    Fin.ext (by show 1024 * (t.val % 8) + l.val = 1024 * j.val + l.val; rw [hj])
  rw [eq, el]

/-- The running minimum of f 0, …, f k, grouped from the left. -/
def v0_pre (f : ℕ → EReal) : ℕ → EReal
  | 0 => f 0
  | k + 1 => min (v0_pre f k) (f (k + 1))

/-- The tile values of row tile i at query point r, by column tile (the top element past the last tile). -/
def v0_tiles (i : ℕ) (β : Fin 4) (r : Fin 512) (hq : 512 * i + r.val < 8192) (j : ℕ) : EReal :=
  if h : j < 8 then tileInf (fun mm => d2 a b β (⟨512 * i + r.val, hq⟩ : Fin 8192) mm) ⟨j, h⟩ else ⊤

omit ha hb in
theorem v0_tiles_lt (i : ℕ) (β : Fin 4) (r : Fin 512) (hq : 512 * i + r.val < 8192) (j : ℕ) (h : j < 8) :
    v0_tiles a b i β r hq j = tileInf (fun mm => d2 a b β (⟨512 * i + r.val, hq⟩ : Fin 8192) mm) ⟨j, h⟩ := dif_pos h

/-- Before the last column tile the output block holds the running minimum of the row's tile values so far. -/
theorem v0_acc (i : ℕ) (β : Fin 4) (r : Fin 512) (hq : 512 * i + r.val < 8192) :
    ∀ k : ℕ, k ≤ 6 → ∀ (n : ℕ) (hn : n < cfg0.N), n / 8 = i → n % 8 = k →
      accAt0 V c n hn (ix2 β r) = v0_pre (v0_tiles a b i β r hq) k
  | 0, _, n, hn, hi, hk => by
    rw [accAt0_A V c ⟨n, hn⟩ hk]
    show tile0 (iblk0 V c 0 ⟨n, hn⟩) (iblk0 V c 1 ⟨n, hn⟩) (ix2 β r) = v0_tiles a b i β r hq 0
    rw [v0_tiles_lt a b i β r hq 0 (by decide)]
    exact v0_tile V c a b ha hb ⟨n, hn⟩ i ⟨0, by decide⟩ hi hk β r hq
  | k + 1, hk6, n, hn, hi, hk => by
    have h0 : ¬ (⟨n, hn⟩ : Fin cfg0.N).val % 8 = 0 := by dsimp only; omega
    have h7 : ¬ (⟨n, hn⟩ : Fin cfg0.N).val % 8 = 7 := by dsimp only; omega
    rw [accAt0_B V c ⟨n, hn⟩ h0 h7]
    show k0_pay2 _ _ _ _ _ _ _ (accAt0 V c (n - 1) _) (ix2 β r) = min (v0_pre (v0_tiles a b i β r hq) k) (v0_tiles a b i β r hq (k + 1))
    rw [merge0_apply, v0_acc i β r hq k (by omega) (n - 1) _ (by omega) (by omega),
      v0_tiles_lt a b i β r hq (k + 1) (by omega)]
    exact congrArg _ (v0_tile V c a b ha hb ⟨n, hn⟩ i ⟨k + 1, by omega⟩ hi hk β r hq)

/-- After the last column tile of row tile i the output block holds, at query point r, the distance from point 512 i + r
    of the first cloud to the second cloud. -/
theorem v0_row (t : Fin cfg0.N) (h7 : t.val % 8 = 7) (β : Fin 4) (r : Fin 512) :
    accAt0 V c t.val t.isLt (ix2 β r)
      = nn a b β (⟨512 * (t.val / 8) + r.val, by have := t.isLt; have hN : cfg0.N = 128 := N_0; have := r.isLt; omega⟩ : Fin 8192) := by
  have hN : cfg0.N = 128 := N_0
  have hq : 512 * (t.val / 8) + r.val < 8192 := by have := t.isLt; have := r.isLt; omega
  rw [accAt0_C V c t h7]
  show k0_pay3 (k0_pay2 _ _ _ _ _ _ _ (accAt0 V c (t.val - 1) _)) (ix2 β r) = _
  rw [fin0_apply, merge0_apply, v0_acc V c a b ha hb (t.val / 8) β r hq 6 (le_refl _) (t.val - 1) _ (by omega) (by omega),
    v0_tile V c a b ha hb t (t.val / 8) ⟨7, by decide⟩ rfl h7 β r hq]
  simp only [v0_pre]
  rw [v0_tiles_lt a b _ β r hq 0 (by decide), v0_tiles_lt a b _ β r hq 1 (by decide), v0_tiles_lt a b _ β r hq 2 (by decide),
    v0_tiles_lt a b _ β r hq 3 (by decide), v0_tiles_lt a b _ β r hq 4 (by decide), v0_tiles_lt a b _ β r hq 5 (by decide),
    v0_tiles_lt a b _ β r hq 6 (by decide)]
  exact root_join8 _

omit ha hb in
/-- The output block at point t, read out of an array over batch and point, holds points 512 (t / 8) .. + 511. -/
theorem v0_read2 (t : Fin cfg0.N) (G : S4x8192.Idx → EReal) (β : Fin 4) (r : Fin 512) :
    ((cfg0.win 2).blk t).view.read (Elt Ideal) G (ix2 β r)
      = G (ix2 β (⟨512 * (t.val / 8) + r.val, by have := t.isLt; have hN : cfg0.N = 128 := N_0; have := r.isLt; omega⟩ : Fin 8192)) := by
  obtain ⟨-, -, -, -, -, -, e0, e1⟩ := v0_idx t
  rw [View.read_apply]
  refine congrArg G (funext fun x => Fin.ext ?_)
  match x with
  | ⟨0, _⟩ => show win0_2.index t (0 : Fin 2) * 4 + 1 * β.val = β.val; rw [e0]; omega
  | ⟨1, _⟩ => show win0_2.index t (1 : Fin 2) * 512 + 1 * r.val = 512 * (t.val / 8) + r.val; rw [e1]; omega

omit ha hb in
/-- Every index (β, n) of the output array lies in the block written back at point 8 (n / 512) + 7. -/
theorem v0_cover (i : ((cfg0.win 2).arr.view.loc (c.tc : Thread nD τ)).2.ty.Idx) :
    ∃ t : Fin cfg0.N, (cfg0.win 2).flush t = true ∧ i ∈ ((cfg0.win 2).blk t).view.set := by
  have hN : cfg0.N = 128 := N_0
  have h0 : (i 0).val < 4 := (i 0).isLt
  have h1 : (i 1).val < 8192 := (i 1).isLt
  obtain ⟨t, ht⟩ : ∃ t : Fin cfg0.N, t.val = 8 * ((i 1).val / 512) + 7 := ⟨⟨8 * ((i 1).val / 512) + 7, by omega⟩, rfl⟩
  obtain ⟨-, -, -, -, -, -, e0, e1⟩ := v0_idx t
  refine ⟨t, (flush0_2 t).mpr (by omega), ?_⟩
  show i ∈ ((View.whole main_v2).slice (win0_2.rect t)).set
  rw [View.set_slice_whole, Rect.mem_set_unit]
  intro x
  match x with
  | ⟨0, _⟩ =>
    show win0_2.index t (0 : Fin 2) * 4 ≤ (i 0).val ∧ (i 0).val < win0_2.index t (0 : Fin 2) * 4 + 4
    rw [e0]; omega
  | ⟨1, _⟩ =>
    show win0_2.index t (1 : Fin 2) * 512 ≤ (i 1).val ∧ (i 1).val < win0_2.index t (1 : Fin 2) * 512 + 512
    rw [e1]; omega

/-- What a flushing point writes back is its block of the nearest-neighbour distances. -/
theorem v0_flushed (t : Fin cfg0.N) (hf : (cfg0.win 2).flush t = true) :
    (dat0 V c).flushed 2 t = ((cfg0.win 2).blk t).view.read (Elt Ideal) (nnArr a b) := by
  have h7 : t.val % 8 = 7 := (flush0_2 t).mp hf
  show (cfg0.win 2).cut (grid0.coords t) ((dat0 V c).after 2 t) = _
  rw [after0_2]
  refine funext fun (j : S4x512.Idx) => ?_
  obtain ⟨β, r, rfl⟩ : ∃ (β : Fin 4) (r : Fin 512), j = ix2 β r := ⟨j 0, j 1, eq_ix2 j⟩
  show accAt0 V c t.val t.isLt (ix2 β r) = _
  rw [v0_row V c a b ha hb t h7 β r, v0_read2, nnArr_ix2]

/-- After the first call the output array holds the distance from each point of the first cloud to the second. -/
theorem v0_final : (dat0 (F := Ideal) V c).arrAt 2 cfg0.N = nnArr a b :=
  (dat0 V c).arrAt_eq_of_cover 2 (nnArr a b) (v0_flushed V c a b ha hb) (v0_cover c)

end Row
end Region

end Cert.KernelIdeal.Gen.Hand

end
-- ==== Proof.KIValue1.lean ====
/-
  The second call's output array, after the run, holds the nearest-neighbour distances from the cloud its first operand
  holds to the cloud its second operand holds.

  The grid is 16 row tiles by 8 column tiles; point t = 8 i + j is row tile i, column tile j. At t the query window holds
  points 512 i .. 512 i + 511 of the first operand's (transposed) cloud, the database window points 1024 j .. 1024 j + 1023 of the
  second operand's, and the output window is block (0, i) of the output array. The tile value at t, at query point r, is the least
  expanded squared distance from point 512 i + r to the 1024 points of column tile j. Along a row the output block holds
  the running minimum of the tile values, grouped from the left; after column tile 7 it is clamped and rooted. The running
  minimum over the eight column tiles is the infimum over all 8192 points, so the block written back after column tile 7
  is block (0, i) of the nearest-neighbour distances; these blocks cover the output array.
-/
import proofs.«158981_j11493332484300_2_alg».proof.Proof.KIBody1
import proofs.«158981_j11493332484300_2_alg».proof.Proof.TileValue
import proofs.«158981_j11493332484300_2_alg».proof.Proof.TileJoin
import proofs.«158981_j11493332484300_2_alg».proof.Proof.Spec
import Idealize.ShloMosaic.Lib.Pipeline.Value
import Idealize.ShloMosaic.Lib.ValueIdx

set_option maxRecDepth 16384

noncomputable section

namespace Cert.KernelIdeal.Gen.Hand

open Idealize.ShloMosaic Idealize.ShloMosaic.TcCoe Idealize.ShloMosaic.ValueIdx
open Idealize.SL.Sem
open Idealize.ShloMosaic.Pipeline (Dat Cfg Window)
open Cert.KernelIdeal.TileValue Cert.Nearest

/-! ## The index maps, decided once over the grid -/

/-- At point t = 8 i + j the query window is at block (0, 0, i), the database window at block (0, 0, j) and the
    output window at block (0, i). -/
theorem v1_idx : ∀ t : Fin cfg1.N,
    win1_0.index t (0 : Fin 3) = 0 ∧ win1_0.index t (1 : Fin 3) = 0 ∧ win1_0.index t (2 : Fin 3) = t.val / 8
    ∧ win1_1.index t (0 : Fin 3) = 0 ∧ win1_1.index t (1 : Fin 3) = 0 ∧ win1_1.index t (2 : Fin 3) = t.val % 8
    ∧ win1_2.index t (0 : Fin 2) = 0 ∧ win1_2.index t (1 : Fin 2) = t.val / 8 :=
  (by decide +kernel : ∀ t : Fin grid1.N, _)

section Region
variable (V : (c : Dev nD) → (b : Ref sig .tc) → Buf (Elt Ideal) ((c : Thread nD τ).loc b))

/-! ## The input blocks, read at an index -/

/-- The query block at point t holds points 512 (t / 8) .. 512 (t / 8) + 511 of the first array. -/
theorem v1_blk0 (c : Dev nD) (t : Fin cfg1.N) (β : Fin 4) (d : Fin 3) (r : Fin 512) :
    (iblk1 V c 0 t : Vec Ideal S4x3x512 .f32) (ix3 β d r)
      = V c main_v3 (ix3 β d (⟨512 * (t.val / 8) + r.val, by have := t.isLt; have hN : cfg1.N = 128 := N_1; have := r.isLt; omega⟩ : Fin 8192)) := by
  obtain ⟨e0, e1, e2, -⟩ := v1_idx t
  unfold iblk1
  rw [View.read_apply]
  show V c main_v3 _ = V c main_v3 _
  congr 1
  funext a
  apply Fin.ext
  match a with
  | ⟨0, _⟩ => show win1_0.index t (0 : Fin 3) * 4 + 1 * β.val = β.val; rw [e0]; omega
  | ⟨1, _⟩ => show win1_0.index t (1 : Fin 3) * 3 + 1 * d.val = d.val; rw [e1]; omega
  | ⟨2, _⟩ => show win1_0.index t (2 : Fin 3) * 512 + 1 * r.val = 512 * (t.val / 8) + r.val; rw [e2]; omega

/-- The database block at point t holds points 1024 (t % 8) .. 1024 (t % 8) + 1023 of the second array. -/
theorem v1_blk1 (c : Dev nD) (t : Fin cfg1.N) (β : Fin 4) (d : Fin 3) (l : Fin 1024) :
    (iblk1 V c 1 t : Vec Ideal S4x3x1024 .f32) (ix3 β d l)
      = V c main_v4 (ix3 β d (⟨1024 * (t.val % 8) + l.val, by have := l.isLt; omega⟩ : Fin 8192)) := by
  obtain ⟨-, -, -, e0, e1, e2, -⟩ := v1_idx t
  unfold iblk1
  rw [View.read_apply]
  show V c main_v4 _ = V c main_v4 _
  congr 1
  funext a
  apply Fin.ext
  match a with
  | ⟨0, _⟩ => show win1_1.index t (0 : Fin 3) * 4 + 1 * β.val = β.val; rw [e0]; omega
  | ⟨1, _⟩ => show win1_1.index t (1 : Fin 3) * 3 + 1 * d.val = d.val; rw [e1]; omega
  | ⟨2, _⟩ => show win1_1.index t (2 : Fin 3) * 1024 + 1 * l.val = 1024 * (t.val % 8) + l.val; rw [e2]; omega

/-! ## The output block's closed form along a row of the grid -/

section Row
variable (c : Dev nD) (a b : Cloud)
  (ha : ∀ (β : Fin 4) (d : Fin 3) (n : Fin 8192), V c main_v3 (ix3 β d n) = a (ix3 β n d))
  (hb : ∀ (β : Fin 4) (d : Fin 3) (n : Fin 8192), V c main_v4 (ix3 β d n) = b (ix3 β n d))
include ha hb

/-- The tile value at point t = 8 i + j, at query point r of the block: the least expanded squared distance from point
    512 i + r of the first cloud to the points of column tile j of the second. -/
theorem v1_tile (t : Fin cfg1.N) (i : ℕ) (j : Fin 8) (hi : t.val / 8 = i) (hj : t.val % 8 = j.val) (β : Fin 4) (r : Fin 512)
    (hq : 512 * i + r.val < 8192) :
    tile1 (iblk1 V c 0 t) (iblk1 V c 1 t) (ix2 β r)
      = tileInf (fun mm => d2 a b β (⟨512 * i + r.val, hq⟩ : Fin 8192) mm) j := by
  rw [tile1_apply]
  unfold tileInf d2
  refine Finset.inf_congr rfl fun l _ => ?_
  rw [v1_blk0, v1_blk0, v1_blk0, v1_blk1, v1_blk1, v1_blk1, ha, ha, ha, hb, hb, hb]
  have eq : (⟨512 * (t.val / 8) + r.val, by omega⟩ : Fin 8192) = ⟨512 * i + r.val, hq⟩ := Fin.ext (by show 512 * (t.val / 8) + r.val = 512 * i + r.val; rw [hi])
  have el : (⟨1024 * (t.val % 8) + l.val, by have := l.isLt; omega⟩ : Fin 8192) = ⟨1024 * j.val + l.val, by have := j.isLt; have := l.isLt; omega⟩ :=
    Fin.ext (by show 1024 * (t.val % 8) + l.val = 1024 * j.val + l.val; rw [hj])
  rw [eq, el]

/-- The running minimum of f 0, …, f k, grouped from the left. -/
def v1_pre (f : ℕ → EReal) : ℕ → EReal
  | 0 => f 0
  | k + 1 => min (v1_pre f k) (f (k + 1))

/-- The tile values of row tile i at query point r, by column tile (the top element past the last tile). -/
def v1_tiles (i : ℕ) (β : Fin 4) (r : Fin 512) (hq : 512 * i + r.val < 8192) (j : ℕ) : EReal :=
  if h : j < 8 then tileInf (fun mm => d2 a b β (⟨512 * i + r.val, hq⟩ : Fin 8192) mm) ⟨j, h⟩ else ⊤

omit ha hb in
theorem v1_tiles_lt (i : ℕ) (β : Fin 4) (r : Fin 512) (hq : 512 * i + r.val < 8192) (j : ℕ) (h : j < 8) :
    v1_tiles a b i β r hq j = tileInf (fun mm => d2 a b β (⟨512 * i + r.val, hq⟩ : Fin 8192) mm) ⟨j, h⟩ := dif_pos h

/-- Before the last column tile the output block holds the running minimum of the row's tile values so far. -/
theorem v1_acc (i : ℕ) (β : Fin 4) (r : Fin 512) (hq : 512 * i + r.val < 8192) :
    ∀ k : ℕ, k ≤ 6 → ∀ (n : ℕ) (hn : n < cfg1.N), n / 8 = i → n % 8 = k →
      accAt1 V c n hn (ix2 β r) = v1_pre (v1_tiles a b i β r hq) k
  | 0, _, n, hn, hi, hk => by
    rw [accAt1_A V c ⟨n, hn⟩ hk]
    show tile1 (iblk1 V c 0 ⟨n, hn⟩) (iblk1 V c 1 ⟨n, hn⟩) (ix2 β r) = v1_tiles a b i β r hq 0
    rw [v1_tiles_lt a b i β r hq 0 (by decide)]
    exact v1_tile V c a b ha hb ⟨n, hn⟩ i ⟨0, by decide⟩ hi hk β r hq
  | k + 1, hk6, n, hn, hi, hk => by
    have h0 : ¬ (⟨n, hn⟩ : Fin cfg1.N).val % 8 = 0 := by dsimp only; omega
    have h7 : ¬ (⟨n, hn⟩ : Fin cfg1.N).val % 8 = 7 := by dsimp only; omega
    rw [accAt1_B V c ⟨n, hn⟩ h0 h7]
    show k1_pay2 _ _ _ _ _ _ _ (accAt1 V c (n - 1) _) (ix2 β r) = min (v1_pre (v1_tiles a b i β r hq) k) (v1_tiles a b i β r hq (k + 1))
    rw [merge1_apply, v1_acc i β r hq k (by omega) (n - 1) _ (by omega) (by omega),
      v1_tiles_lt a b i β r hq (k + 1) (by omega)]
    exact congrArg _ (v1_tile V c a b ha hb ⟨n, hn⟩ i ⟨k + 1, by omega⟩ hi hk β r hq)

/-- After the last column tile of row tile i the output block holds, at query point r, the distance from point 512 i + r
    of the first cloud to the second cloud. -/
theorem v1_row (t : Fin cfg1.N) (h7 : t.val % 8 = 7) (β : Fin 4) (r : Fin 512) :
    accAt1 V c t.val t.isLt (ix2 β r)
      = nn a b β (⟨512 * (t.val / 8) + r.val, by have := t.isLt; have hN : cfg1.N = 128 := N_1; have := r.isLt; omega⟩ : Fin 8192) := by
  have hN : cfg1.N = 128 := N_1
  have hq : 512 * (t.val / 8) + r.val < 8192 := by have := t.isLt; have := r.isLt; omega
  rw [accAt1_C V c t h7]
  show k1_pay3 (k1_pay2 _ _ _ _ _ _ _ (accAt1 V c (t.val - 1) _)) (ix2 β r) = _
  rw [fin1_apply, merge1_apply, v1_acc V c a b ha hb (t.val / 8) β r hq 6 (le_refl _) (t.val - 1) _ (by omega) (by omega),
    v1_tile V c a b ha hb t (t.val / 8) ⟨7, by decide⟩ rfl h7 β r hq]
  simp only [v1_pre]
  rw [v1_tiles_lt a b _ β r hq 0 (by decide), v1_tiles_lt a b _ β r hq 1 (by decide), v1_tiles_lt a b _ β r hq 2 (by decide),
    v1_tiles_lt a b _ β r hq 3 (by decide), v1_tiles_lt a b _ β r hq 4 (by decide), v1_tiles_lt a b _ β r hq 5 (by decide),
    v1_tiles_lt a b _ β r hq 6 (by decide)]
  exact root_join8 _

omit ha hb in
/-- The output block at point t, read out of an array over batch and point, holds points 512 (t / 8) .. + 511. -/
theorem v1_read2 (t : Fin cfg1.N) (G : S4x8192.Idx → EReal) (β : Fin 4) (r : Fin 512) :
    ((cfg1.win 2).blk t).view.read (Elt Ideal) G (ix2 β r)
      = G (ix2 β (⟨512 * (t.val / 8) + r.val, by have := t.isLt; have hN : cfg1.N = 128 := N_1; have := r.isLt; omega⟩ : Fin 8192)) := by
  obtain ⟨-, -, -, -, -, -, e0, e1⟩ := v1_idx t
  rw [View.read_apply]
  refine congrArg G (funext fun x => Fin.ext ?_)
  match x with
  | ⟨0, _⟩ => show win1_2.index t (0 : Fin 2) * 4 + 1 * β.val = β.val; rw [e0]; omega
  | ⟨1, _⟩ => show win1_2.index t (1 : Fin 2) * 512 + 1 * r.val = 512 * (t.val / 8) + r.val; rw [e1]; omega

omit ha hb in
/-- Every index (β, n) of the output array lies in the block written back at point 8 (n / 512) + 7. -/
theorem v1_cover (i : ((cfg1.win 2).arr.view.loc (c.tc : Thread nD τ)).2.ty.Idx) :
    ∃ t : Fin cfg1.N, (cfg1.win 2).flush t = true ∧ i ∈ ((cfg1.win 2).blk t).view.set := by
  have hN : cfg1.N = 128 := N_1
  have h0 : (i 0).val < 4 := (i 0).isLt
  have h1 : (i 1).val < 8192 := (i 1).isLt
  obtain ⟨t, ht⟩ : ∃ t : Fin cfg1.N, t.val = 8 * ((i 1).val / 512) + 7 := ⟨⟨8 * ((i 1).val / 512) + 7, by omega⟩, rfl⟩
  obtain ⟨-, -, -, -, -, -, e0, e1⟩ := v1_idx t
  refine ⟨t, (flush1_2 t).mpr (by omega), ?_⟩
  show i ∈ ((View.whole main_v5).slice (win1_2.rect t)).set
  rw [View.set_slice_whole, Rect.mem_set_unit]
  intro x
  match x with
  | ⟨0, _⟩ =>
    show win1_2.index t (0 : Fin 2) * 4 ≤ (i 0).val ∧ (i 0).val < win1_2.index t (0 : Fin 2) * 4 + 4
    rw [e0]; omega
  | ⟨1, _⟩ =>
    show win1_2.index t (1 : Fin 2) * 512 ≤ (i 1).val ∧ (i 1).val < win1_2.index t (1 : Fin 2) * 512 + 512
    rw [e1]; omega

/-- What a flushing point writes back is its block of the nearest-neighbour distances. -/
theorem v1_flushed (t : Fin cfg1.N) (hf : (cfg1.win 2).flush t = true) :
    (dat1 V c).flushed 2 t = ((cfg1.win 2).blk t).view.read (Elt Ideal) (nnArr a b) := by
  have h7 : t.val % 8 = 7 := (flush1_2 t).mp hf
  show (cfg1.win 2).cut (grid1.coords t) ((dat1 V c).after 2 t) = _
  rw [after1_2]
  refine funext fun (j : S4x512.Idx) => ?_
  obtain ⟨β, r, rfl⟩ : ∃ (β : Fin 4) (r : Fin 512), j = ix2 β r := ⟨j 0, j 1, eq_ix2 j⟩
  show accAt1 V c t.val t.isLt (ix2 β r) = _
  rw [v1_row V c a b ha hb t h7 β r, v1_read2, nnArr_ix2]

/-- After the first call the output array holds the distance from each point of the first cloud to the second. -/
theorem v1_final : (dat1 (F := Ideal) V c).arrAt 2 cfg1.N = nnArr a b :=
  (dat1 V c).arrAt_eq_of_cover 2 (nnArr a b) (v1_flushed V c a b ha hb) (v1_cover c)

end Row
end Region

end Cert.KernelIdeal.Gen.Hand

end
-- ==== Proof.KIFinal.lean ====
import proofs.«158981_j11493332484300_2_alg».proof.Proof.KIEnds
import proofs.«158981_j11493332484300_2_alg».proof.Proof.KIValue0
import proofs.«158981_j11493332484300_2_alg».proof.Proof.KIValue1
import proofs.«158981_j11493332484300_2_alg».proof.Proof.Spec
import proofs.«158981_j11493332484300_2_alg».proof.Proof.Tail

noncomputable section

namespace Cert.KernelIdeal.Gen.Hand

open Idealize.ShloMosaic Idealize.ShloMosaic.TcCoe Idealize.SL.Sem Idealize.ShloMosaic.ValueIdx

variable (m : (ℓ : Loc nD τ sig) → Buf (Elt Ideal) ℓ) (ρ : Dev nD → PrngReg)

/-- The program's result at the ideal instance: the shared tail of the distances from the second cloud's points to
    the first cloud and of the distances from the first cloud's points to the second. -/
theorem W5_result (c : Dev nD) :
    W5 m ρ c (Proc.devRef .tc main_v13)
      = Cert.Nearest.tailF reducesTo_S4x8192_S4_d1 h_S_ bcast_S_S4 reducesTo_S4_S_d0
          (Cert.Nearest.nnArr (m ((c : Thread nD τ).loc main_arg1)) (m ((c : Thread nD τ).loc main_arg0)))
          (Cert.Nearest.nnArr (m ((c : Thread nD τ).loc main_arg0)) (m ((c : Thread nD τ).loc main_arg1))) := by
  rw [W5_v13, W4_v5, W4_v2,
    v0_final (V1 m ρ) c _ _ (V1_v0 m ρ c) (V1_v1 m ρ c),
    v1_final (V3 m ρ) c _ _ (V3_v3 m ρ c) (V3_v4 m ρ c)]

/-- The run, read: the result at that value, the arguments unchanged. -/
theorem run_value : θ_run defs (onTc (τ := τ) (main (F := Ideal))) ⟨m, fun _ => 0, ρ⟩ (fun r => ∀ c : Dev nD,
      r.2.mem ((c.tc : Thread nD τ).loc main_v13)
        = Cert.Nearest.tailF reducesTo_S4x8192_S4_d1 h_S_ bcast_S_S4 reducesTo_S4_S_d0
            (Cert.Nearest.nnArr (m ((c : Thread nD τ).loc main_arg1)) (m ((c : Thread nD τ).loc main_arg0)))
            (Cert.Nearest.nnArr (m ((c : Thread nD τ).loc main_arg0)) (m ((c : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v13 (by decide))).trans (W5_result m ρ c),
     (h c _ (mem_uc main_arg0 (by decide))).trans (W5_main_arg0 m ρ c),
     (h c _ (mem_uc main_arg1 (by decide))).trans (W5_main_arg1 m ρ c)⟩) (run_all m ρ)

end Cert.KernelIdeal.Gen.Hand

end
-- ==== Proof.RefNearest.lean ====
/-
  The reference program's two minimum-reductions are the nearest-neighbour distances of the specification.

  With x0, x1 the two clouds, the reference forms at (β, n, m) the value
      sqrt (max ((A[β,n] + B[β,m]) - 2 * AB[β,n,m]) 0),
  A[β,n] = 0 + Σ_d x0[β,n,d]^2,  B[β,m] = 0 + Σ_d x1[β,m,d]^2,  AB[β,n,m] = Σ_d x0[β,n,d] * x1[β,m,d],
  which is root (d2 x0 x1 β n m) of the specification (`v15_ix3`). Its minimum over m from +∞ is a finite infimum of
  rooted values; clamping then rooting is monotone and fixes +∞, so it commutes with the finite infimum (`root_inf`),
  and the minimum is root of the infimum over m of d2 x0 x1 β n m: the distance from point n of x0 to the cloud x1
  (`ref_v17`). The minimum over n is, in the same way, root of the infimum over n of d2 x0 x1 β n m; the expanded
  squared distance is symmetric in its two points (`d2_symm`), so this is the distance from point m of x1 to the
  cloud x0 (`ref_v16`).
-/
import proofs.«158981_j11493332484300_2_alg».proof.Proof.Gen.ReferenceIdeal.Read
import proofs.«158981_j11493332484300_2_alg».proof.Proof.Spec
import Idealize.ShloMosaic.PureOps.Reduce

noncomputable section

namespace Cert.ReferenceIdeal.RefNearest

open Idealize.ShloMosaic Idealize.ShloMosaic.ValueIdx Cert.ReferenceIdeal Cert.ReferenceIdeal.Gen Cert.ReferenceIdeal.Read Cert.Nearest

/-- The index chain of the first squared norm, at (β, n, m), reads coordinate k of point n. -/
theorem idxA (β : Fin 4) (n m : Fin 8192) (k : Fin 3) :
    idx_main_v1 (idx_main_v5 (idx_main_v7 (ix3 β n m))) k = ix3 β n k := by
  funext a; match a with | ⟨0, _⟩ => rfl | ⟨1, _⟩ => rfl | ⟨2, _⟩ => rfl

/-- The index chain of the second squared norm, at (β, n, m), reads coordinate k of point m. -/
theorem idxB (β : Fin 4) (n m : Fin 8192) (k : Fin 3) :
    idx_main_v3 (idx_main_v6 (idx_main_v8 (ix3 β n m))) k = ix3 β m k := by
  funext a; match a with | ⟨0, _⟩ => rfl | ⟨1, _⟩ => rfl | ⟨2, _⟩ => rfl

/-- The left operand of the contraction, at (β, n, m), reads coordinate k of point n. -/
theorem idxL (β : Fin 4) (n m : Fin 8192) (k : Fin 3) :
    lidx_main_v4 (ix3 β n m) k = ix3 β n k := by
  funext a; match a with | ⟨0, _⟩ => rfl | ⟨1, _⟩ => rfl | ⟨2, _⟩ => rfl

/-- The right operand of the contraction, at (β, n, m), reads coordinate k of point m. -/
theorem idxR (β : Fin 4) (n m : Fin 8192) (k : Fin 3) :
    ridx_main_v4 (ix3 β n m) k = ix3 β m k := by
  funext a; match a with | ⟨0, _⟩ => rfl | ⟨1, _⟩ => rfl | ⟨2, _⟩ => rfl

/-- The rooted, clamped expanded squared distance, read at (β, n, m). -/
theorem v15_ix3 (x0 x1 : Cloud) (β : Fin 4) (n m : Fin 8192) :
    val_main_v15 (F := Ideal) x0 x1 (ix3 β n m) = root (d2 x0 x1 β n m) := by
  rw [val_main_v15_apply, val_main_v14_apply, val_main_v12_apply, val_main_v13_apply, val_main_cst_2_apply,
    val_main_v9_apply, val_main_v11_apply, val_main_v10_apply, val_main_cst_1_apply, val_main_v7_apply,
    val_main_v8_apply, val_main_v5_apply, val_main_v6_apply, val_main_v1_apply, val_main_v3_apply,
    val_main_v4_apply, val_main_cst_apply, val_main_cst_0_apply]
  simp only [Fin.sum_univ_three, val_main_v0_apply, val_main_v2_apply, idxA, idxB, idxL, idxR]
  simp only [Ideal.hostUnary_sqrt_def, Ideal.maximumf_def, Ideal.subf_def, Ideal.addf_def, Ideal.mulf_def,
    Ideal.ofBits_def]
  unfold root d2 d2pt sq3 dot3 two zero
  simp only [Ideal.ofBits_zero_f32, zero_add]

/-! ## The two minimum-reductions -/

theorem hR2 : S4x8192x8192.Reduces [2] S4x8192 := by decide
theorem hR1 : S4x8192x8192.Reduces [1] S4x8192 := by decide

/-- The reduced index (β, n) with coordinate k put back on the last axis is (β, n, k). -/
theorem lift_last (β : Fin 4) (n : Fin 8192) (k : Fin (S4x8192x8192.size 2)) :
    hR2.lift (ix2 β n) k = ix3 β n (⟨k.val, k.isLt⟩ : Fin 8192) := by
  funext c; apply Fin.ext
  match c with | ⟨0, _⟩ => rfl | ⟨1, _⟩ => rfl | ⟨2, _⟩ => rfl

/-- The reduced index (β, m) with coordinate k put back on the middle axis is (β, k, m). -/
theorem lift_mid (β : Fin 4) (m : Fin 8192) (k : Fin (S4x8192x8192.size 1)) :
    hR1.lift (ix2 β m) k = ix3 β (⟨k.val, k.isLt⟩ : Fin 8192) m := by
  funext c; apply Fin.ext
  match c with | ⟨0, _⟩ => rfl | ⟨1, _⟩ => rfl | ⟨2, _⟩ => rfl

/-- The bit pattern of the reductions' initial value is the top element. -/
theorem ofBits_inf_f32 : Ideal.ofBits .f32 0x7F800000#32 = (⊤ : EReal) := by simp [Ideal.ofBits, Ideal.ieee]

/-- Clamping then rooting sends the top element to itself. -/
theorem root_top : root ⊤ = ⊤ := by
  unfold root; rw [max_eq_left le_top]; rfl

/-- Clamping then rooting commutes with a finite infimum. -/
theorem root_inf {ι : Type} (s : Finset ι) (f : ι → EReal) : root (s.inf f) = s.inf (root ∘ f) :=
  Finset.comp_inf_eq_inf_comp root root_min root_top

/-- A fold of the binary minimum from the top element is the finite infimum. -/
theorem fold_min_top {ι : Type} (s : Finset ι) (f : ι → EReal) :
    s.fold (FloatOps.minimumf (F := Ideal) (φ := .f32)) (⊤ : EReal) f = s.inf f := rfl

theorem ref_v17_ix2 (x0 x1 : Cloud) (β : Fin 4) (n : Fin 8192) :
    val_main_v17 (F := Ideal) x0 x1 (ix2 β n) = nn x0 x1 β n := by
  unfold val_main_v17 nn
  rw [Host.reduce_eq_fold_single FloatOps.minimumf _ _ reducesTo_S4x8192x8192_S4x8192_d2 hR2 h_S_, root_inf]
  have hf : (val_main_v15 (F := Ideal) x0 x1 ∘ hR2.lift (ix2 β n)) = (root ∘ fun m : Fin 8192 => d2 x0 x1 β n m) :=
    funext fun k => by
      show val_main_v15 (F := Ideal) x0 x1 (hR2.lift (ix2 β n) k) = _
      rw [lift_last, v15_ix3]; rfl
  rw [hf, val_main_cst_4_apply, Ideal.ofBits_def, ofBits_inf_f32]
  exact fold_min_top _ _

/-- The minimum over the last axis: the distance from each point of the first cloud to the second cloud. -/
theorem ref_v17 (x0 x1 : Cloud) : val_main_v17 (F := Ideal) x0 x1 = nnArr x0 x1 := by
  funext j
  obtain ⟨β, n, rfl⟩ : ∃ (β : Fin 4) (n : Fin 8192), j = ix2 β n := ⟨j 0, j 1, eq_ix2 j⟩
  rw [nnArr_ix2]
  exact ref_v17_ix2 x0 x1 β n

/-! ## The expanded squared distance is symmetric -/

theorem dot3_comm (a0 a1 a2 b0 b1 b2 : EReal) : dot3 a0 a1 a2 b0 b1 b2 = dot3 b0 b1 b2 a0 a1 a2 := by
  unfold dot3; rw [mul_comm a0 b0, mul_comm a1 b1, mul_comm a2 b2]

theorem d2pt_symm (a0 a1 a2 b0 b1 b2 : EReal) : d2pt a0 a1 a2 b0 b1 b2 = d2pt b0 b1 b2 a0 a1 a2 := by
  unfold d2pt; rw [add_comm (sq3 a0 a1 a2) (sq3 b0 b1 b2), dot3_comm a0 a1 a2 b0 b1 b2]

/-- Exchanging the two clouds and the two points leaves the expanded squared distance unchanged: the two squared
    norms are added in the other order and each product of the inner product has its factors exchanged. -/
theorem d2_symm (p q : Cloud) (β : Fin 4) (n m : Fin 8192) : d2 p q β n m = d2 q p β m n := by
  unfold d2; exact d2pt_symm _ _ _ _ _ _

theorem ref_v16_ix2 (x0 x1 : Cloud) (β : Fin 4) (m : Fin 8192) :
    val_main_v16 (F := Ideal) x0 x1 (ix2 β m) = nn x1 x0 β m := by
  unfold val_main_v16 nn
  rw [Host.reduce_eq_fold_single FloatOps.minimumf _ _ reducesTo_S4x8192x8192_S4x8192_d1 hR1 h_S_, root_inf]
  have hf : (val_main_v15 (F := Ideal) x0 x1 ∘ hR1.lift (ix2 β m)) = (root ∘ fun n : Fin 8192 => d2 x1 x0 β m n) :=
    funext fun k => by
      show val_main_v15 (F := Ideal) x0 x1 (hR1.lift (ix2 β m) k) = _
      rw [lift_mid, v15_ix3, d2_symm]; rfl
  rw [hf, val_main_cst_3_apply, Ideal.ofBits_def, ofBits_inf_f32]
  exact fold_min_top _ _

/-- The minimum over the middle axis: the distance from each point of the second cloud to the first cloud. -/
theorem ref_v16 (x0 x1 : Cloud) : val_main_v16 (F := Ideal) x0 x1 = nnArr x1 x0 := by
  funext j
  obtain ⟨β, m, rfl⟩ : ∃ (β : Fin 4) (m : Fin 8192), j = ix2 β m := ⟨j 0, j 1, eq_ix2 j⟩
  rw [nnArr_ix2]
  exact ref_v16_ix2 x0 x1 β m

end Cert.ReferenceIdeal.RefNearest

end
-- ==== Proof.RefFinal.lean ====
/-
  The reference's result as the host tail of the two nearest-neighbour distance arrays.

  After its two minimum-reductions the reference takes, per batch, the mean over the 8192 points of each distance
  array (a sum from zero divided by 8192), adds the two means, and sums the four batch values from zero. The two
  arrays are the distances from each point of the second cloud to the first cloud and from each point of the first
  cloud to the second; the rest is the tail, operation by operation.
-/
import proofs.«158981_j11493332484300_2_alg».proof.Proof.RefNearest
import proofs.«158981_j11493332484300_2_alg».proof.Proof.Tail

noncomputable section

namespace Cert.ReferenceIdeal.RefNearest

open Idealize.ShloMosaic Cert.ReferenceIdeal Cert.ReferenceIdeal.Gen Cert.ReferenceIdeal.Read

/-- The reference's scalar result is the tail of the two distance arrays. -/
theorem ref_result (x0 x1 : Cert.Nearest.Cloud) :
    Cert.ReferenceIdeal.Read.val_main_v25 (F := Ideal) x0 x1
      = Cert.Nearest.tailF reducesTo_S4x8192_S4_d1 h_S_ bcast_S_S4 reducesTo_S4_S_d0
          (Cert.Nearest.nnArr x1 x0) (Cert.Nearest.nnArr x0 x1) := by
  rw [← ref_v16 x0 x1, ← ref_v17 x0 x1]
  rfl

end Cert.ReferenceIdeal.RefNearest

end
-- ==== Proof.lean ====
/-
  Both programs compute, for two clouds of 4 × 8192 points in three coordinates, the sum over the four batches
  of the mean distance from each point of the second cloud to the first cloud plus the mean distance from each
  point of the first cloud to the second, the distance from a point to a cloud being the least distance to the
  cloud's points and the squared distance taken in the expanded form |a|² + |b|² − 2⟨a, b⟩, clamped below at zero
  before the square root.

  The reference forms all 8192 × 8192 clamped roots per batch and takes minima along either axis. The kernel runs
  two calls over a grid of 16 row tiles by 8 column tiles; for a row tile it keeps the running minimum of the
  SQUARED distances over the column tiles in the output block and clamps and roots once, after the last column
  tile. The two agree on the extended reals because clamping then rooting is monotone, so it commutes with a
  minimum; because the running minimum over the eight column tiles of the tiles' minima is the minimum over all
  8192 points; and because the sums of three terms the reference takes are the kernel's left-grouped sums, and the
  second call's squared distances are the first's with the roles exchanged (addition and multiplication commute).
  No law used needs finiteness. The host tail (the means and the final sum) is the same in both programs and is
  carried as one function.

  The three frames: each kernel program runs through its two calls, the body at every grid point in one of three
  cases by the column tile (store; merge; merge, then clamp and root), the output block carried from point to
  point along a row tile; the arguments are written by nothing. The reference is a straight line of host
  operations. The idealization rewrote nothing, so that conjunct is trivial.
-/
import proofs.«158981_j11493332484300_2_alg».proof.Defs
import proofs.«158981_j11493332484300_2_alg».proof.Proof.Gen.Kernel
import proofs.«158981_j11493332484300_2_alg».proof.Proof.Gen.KernelIdeal
import proofs.«158981_j11493332484300_2_alg».proof.Proof.Gen.ReferenceIdeal
import proofs.«158981_j11493332484300_2_alg».proof.Proof.Gen.Pre_finite_inputs
import proofs.«158981_j11493332484300_2_alg».proof.Proof.Gen.ReferenceIdeal.Run
import proofs.«158981_j11493332484300_2_alg».proof.Proof.Gen.ReferenceIdeal.Read
import proofs.«158981_j11493332484300_2_alg».proof.Proof.KRun
import proofs.«158981_j11493332484300_2_alg».proof.Proof.KIFinal
import proofs.«158981_j11493332484300_2_alg».proof.Proof.RefFinal
import Idealize.ShloMosaic.Adequacy
import Idealize.ShloMosaic.Init

noncomputable section

namespace Cert.Proof

open Idealize.ShloMosaic Idealize.SL.Sem

/-- The word-level kernel program runs to the end and leaves its arguments as launched. -/
theorem frame_k : Cert.frame_Kernel := fun m ρ _ => Cert.Kernel.Gen.Hand.frameH (F := Bits) m ρ

/-- So does its idealization. -/
theorem frame_ki : Cert.frame_KernelIdeal := fun m ρ _ => Cert.KernelIdeal.Gen.Hand.frameH (F := Ideal) m ρ

/-- The reference is a line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end at the shared tail of the same two distance arrays. -/
theorem algebraic : Cert.algebraic_KernelIdeal_ReferenceIdeal := by
  intro m ρ m' ρ' _ hagree
  refine ⟨_, Cert.KernelIdeal.Gen.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.ReferenceIdeal.RefNearest.ref_result, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
